-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256 .f32) (main_arg5 : FVec F S256x128 .f32) (main_arg6 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S65536x128 .f32) (main_arg1 : FVec F S64x256 .f32) (main_arg2 : FVec F S256 .f32) (main_arg3 : FVec F S256x256 .f32) (main_arg4 : FVec F S256 .f32) (main_arg5 : FVec F S256x128 .f32) (main_arg6 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S65536x128 : Shape := ⟨2, ![65536, 128]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S512x128 : Shape := ⟨2, ![512, 128]⟩
abbrev S8192x128 : Shape := ⟨2, ![8192, 128]⟩
abbrev S64x128 : Shape := ⟨2, ![64, 128]⟩
abbrev S128x256 : Shape := ⟨2, ![128, 256]⟩
abbrev S8x256 : Shape := ⟨2, ![8, 256]⟩
abbrev S256x64 : Shape := ⟨2, ![256, 64]⟩
abbrev S1x64 : Shape := ⟨2, ![1, 64]⟩
abbrev S4096x128 : Shape := ⟨2, ![4096, 128]⟩
abbrev S4096x256 : Shape := ⟨2, ![4096, 256]⟩
abbrev S4096 : Shape := ⟨1, ![4096]⟩
abbrev S32x128 : Shape := ⟨2, ![32, 128]⟩
abbrev S65536 : Shape := ⟨1, ![65536]⟩

abbrev nBuf : Space → Nat
  | .hbm => 13
  | .vmem => 15
  | .smem => 0
  | _ => 0

abbrev bufTy : (tb : Table) → Fin (tcTables nBuf tb) → BufTy
  | .hbm, ⟨0, _⟩ => ⟨S65536x128, .f32⟩
  | .hbm, ⟨1, _⟩ => ⟨S64x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x256, .f32⟩
  | .hbm, ⟨8, _⟩ => ⟨S1x256, .f32⟩
  | .hbm, ⟨9, _⟩ => ⟨S1x128, .f32⟩
  | .hbm, ⟨10, _⟩ => ⟨S65536x128, .f32⟩
  | .hbm, ⟨11, _⟩ => ⟨S512x128, .f32⟩
  | .hbm, ⟨12, _⟩ => ⟨S65536, .f32⟩
  | .local _ .vmem, ⟨0, _⟩ => ⟨S8192x128, .f32⟩
  | .local _ .vmem, ⟨1, _⟩ => ⟨S8192x128, .f32⟩
  | .local _ .vmem, ⟨2, _⟩ => ⟨S64x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S8192x128, .f32⟩
  | .local _ .vmem, ⟨9, _⟩ => ⟨S8192x128, .f32⟩
  | .local _ .vmem, ⟨10, _⟩ => ⟨S64x128, .f32⟩
  | .local _ .vmem, ⟨11, _⟩ => ⟨S64x128, .f32⟩
  | .local _ .vmem, ⟨12, _⟩ => ⟨S128x256, .f32⟩
  | .local _ .vmem, ⟨13, _⟩ => ⟨S256x256, .f32⟩
  | .local _ .vmem, ⟨14, _⟩ => ⟨S8x256, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  shapeCasts_S128_S1x128 : S128.ShapeCasts S1x128
  inb_S64x256_S64x256_0_0 : ∀ a, (![0, 0] : Fin 2 → Nat) a + S64x256.size a ≤ S64x256.size a
  h_S64x256 : 0 < S64x256.numel
  concatenates_S64x256_S64x256_S128x256_d0 : Shape.Concatenates [S64x256, S64x256] S128x256 0
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x128_S256x64_0_0 : ∀ a, (![0, 0] : Fin 2 → Nat) a + S256x64.size a ≤ S256x128.size a
  h_S256x64 : 0 < S256x64.numel
  inb_S256x128_S256x64_0_64 : ∀ a, (![0, 64] : Fin 2 → Nat) a + S256x64.size a ≤ S256x128.size a
  concatenates_S256x64_S256x64_S256x64_S256x64_S256x256_d1 : Shape.Concatenates [S256x64, S256x64, S256x64, S256x64] S256x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x128_S1x64_0_0 : ∀ a, (![0, 0] : Fin 2 → Nat) a + S1x64.size a ≤ S1x128.size a
  h_S1x64 : 0 < S1x64.numel
  shapeCasts_S1x64_S1x64 : S1x64.ShapeCasts S1x64
  inb_S1x128_S1x64_0_64 : ∀ a, (![0, 64] : Fin 2 → Nat) a + S1x64.size a ≤ S1x128.size a
  concatenates_S1x64_S1x64_S1x64_S1x64_S1x256_d1 : Shape.Concatenates [S1x64, S1x64, S1x64, S1x64] S1x256 1
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8192x128_S4096x128_0_0 : ∀ a, (![0, 0] : Fin 2 → Nat) a + S4096x128.size a ≤ S8192x128.size a
  h_S4096x128 : 0 < S4096x128.numel
  inb_S1x256_S1x256_0_0 : ∀ a, (![0, 0] : Fin 2 → Nat) a + S1x256.size a ≤ S1x256.size a
  h_S1x256 : 0 < S1x256.numel
  broadcasts_S1x256_S4096x256 : S1x256.Broadcasts S4096x256
  inb_S8x256_S1x256_0_0 : ∀ a, (![0, 0] : Fin 2 → Nat) a + S1x256.size a ≤ S8x256.size a
  slices_S4096x256_o0_0_S4096x128 : S4096x256.Slices ![0, 0] S4096x128
  slices_S4096x256_o0_128_S4096x128 : S4096x256.Slices ![0, 128] S4096x128
  reduces_S4096x128_S4096 : S4096x128.Reduces [1] S4096
  shapeCasts_S4096_S32x128 : S4096.ShapeCasts S32x128
  inb_S64x128_S32x128_0_0 : ∀ a, (![0, 0] : Fin 2 → Nat) a + S32x128.size a ≤ S64x128.size a
  h_S32x128 : 0 < S32x128.numel
  inb_S8192x128_S4096x128_4096_0 : ∀ a, (![4096, 0] : Fin 2 → Nat) a + S4096x128.size a ≤ S8192x128.size a
  inb_S64x128_S32x128_32_0 : ∀ a, (![32, 0] : Fin 2 → Nat) a + S32x128.size a ≤ S64x128.size a
  shapeCasts_S512x128_S65536 : S512x128.ShapeCasts S65536
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S65536x128.size a
  hwx0_7 : ∀ i : grid0.Coords, EltTy.bits .f32 = 32 ∨ (Rect.block (s := S65536x128) S8192x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S512x128.size a
  hwx0_8 : ∀ i : grid0.Coords, EltTy.bits .f32 = 32 ∨ (Rect.block (s := S512x128) S64x128.size (cc0_transform_8 i) (hinb0_8 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S8192x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x128 : Shape := ⟨2, ![65536, 128]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S256x64 : Shape := ⟨2, ![256, 64]⟩
abbrev S_ : Shape := ⟨0, ![]⟩
abbrev S256x1 : Shape := ⟨2, ![256, 1]⟩
abbrev S256x129 : Shape := ⟨2, ![256, 129]⟩
abbrev S64 : Shape := ⟨1, ![64]⟩
abbrev S1 : Shape := ⟨1, ![1]⟩
abbrev S129 : Shape := ⟨1, ![129]⟩
abbrev S1x129 : Shape := ⟨2, ![1, 129]⟩
abbrev S1x256 : Shape := ⟨2, ![1, 256]⟩
abbrev S65536x1 : Shape := ⟨2, ![65536, 1]⟩
abbrev S4096x128 : Shape := ⟨2, ![4096, 128]⟩
abbrev S4096x1 : Shape := ⟨2, ![4096, 1]⟩
abbrev S4096x64 : Shape := ⟨2, ![4096, 64]⟩
abbrev S4096x256 : Shape := ⟨2, ![4096, 256]⟩
abbrev S4096x129 : Shape := ⟨2, ![4096, 129]⟩
abbrev S65536 : Shape := ⟨1, ![65536]⟩

abbrev nBuf : Space → Nat
  | .hbm => 23
  | .vmem => 12
  | .smem => 0
  | _ => 0

abbrev bufTy : (tb : Table) → Fin (tcTables nBuf tb) → BufTy
  | .hbm, ⟨0, _⟩ => ⟨S65536x128, .f32⟩
  | .hbm, ⟨1, _⟩ => ⟨S64x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x64, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x129, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S129, .f32⟩
  | .hbm, ⟨17, _⟩ => ⟨S1x129, .f32⟩
  | .hbm, ⟨18, _⟩ => ⟨S1x256, .f32⟩
  | .hbm, ⟨19, _⟩ => ⟨S1x256, .f32⟩
  | .hbm, ⟨20, _⟩ => ⟨S65536x128, .f32⟩
  | .hbm, ⟨21, _⟩ => ⟨S65536x1, .f32⟩
  | .hbm, ⟨22, _⟩ => ⟨S65536, .f32⟩
  | .local _ .vmem, ⟨0, _⟩ => ⟨S4096x128, .f32⟩
  | .local _ .vmem, ⟨1, _⟩ => ⟨S4096x128, .f32⟩
  | .local _ .vmem, ⟨2, _⟩ => ⟨S64x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x129, .f32⟩
  | .local _ .vmem, ⟨7, _⟩ => ⟨S1x129, .f32⟩
  | .local _ .vmem, ⟨8, _⟩ => ⟨S4096x128, .f32⟩
  | .local _ .vmem, ⟨9, _⟩ => ⟨S4096x128, .f32⟩
  | .local _ .vmem, ⟨10, _⟩ => ⟨S4096x1, .f32⟩
  | .local _ .vmem, ⟨11, _⟩ => ⟨S4096x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x129 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x129 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S256x128_S256x64_0_0 : S256x128.Slices ![0, 0] S256x64
  reducesTo_S256x64_S256_d1 : S256x64.ReducesTo [1] S256
  h_S_ : 0 < S_.numel
  bcast_S256_S256x1_0 : S256.BroadcastsInDim S256x1 (![0] : Fin 1 → Fin S256x1.rank)
  concatenates_S256x128_S256x1_S256x129_d1 : Shape.Concatenates [S256x128, S256x1] S256x129 1
  slices_S128_S64_0 : S128.Slices ![0] S64
  reducesTo_S64_S_d0 : S64.ReducesTo [0] S_
  bcast_S_S1 : S_.BroadcastsInDim S1 (![] : Fin 0 → Fin S1.rank)
  concatenates_S128_S1_S129_d0 : Shape.Concatenates [S128, S1] S129 0
  shapeCasts_S129_S1x129 : S129.ShapeCasts S1x129
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  slices_S4096x128_o0_0_S4096x64 : S4096x128.Slices ![0, 0] S4096x64
  slices_S4096x128_o0_64_S4096x64 : S4096x128.Slices ![0, 64] S4096x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  inb_S256x129_S256x129_0_0 : ∀ a, (![0, 0] : Fin 2 → Nat) a + S256x129.size a ≤ S256x129.size a
  h_S256x129 : 0 < S256x129.numel
  shapeCasts_S256x129_S256x129 : S256x129.ShapeCasts S256x129
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S4096x129 : S1x129.Broadcasts S4096x129
  slices_S4096x129_o0_0_S4096x64 : S4096x129.Slices ![0, 0] S4096x64
  slices_S4096x129_o0_64_S4096x64 : S4096x129.Slices ![0, 64] S4096x64
  concatenates_S4096x64_S4096x64_S4096x128_d1 : Shape.Concatenates [S4096x64, S4096x64] S4096x128 1
  slices_S4096x129_o0_128_S4096x1 : S4096x129.Slices ![0, 128] S4096x1
  inb_S4096x1_S4096x1_0_0 : ∀ a, (![0, 0] : Fin 2 → Nat) a + S4096x1.size a ≤ S4096x1.size a
  h_S4096x1 : 0 < S4096x1.numel
  shapeCasts_S65536x1_S65536 : S65536x1.ShapeCasts S65536
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S4096x256_S256x129_S4096x129_1_0_0_1_n_n_wf : DotDims.WF S4096x256 S256x129 S4096x129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x129.size a ≤ S256x129.size a
  hwx0_5 : ∀ i : grid0.Coords, EltTy.bits .f32 = 32 ∨ (Rect.block (s := S256x129) S256x129.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x129.size a ≤ S1x129.size a
  hwx0_6 : ∀ i : grid0.Coords, EltTy.bits .f32 = 32 ∨ (Rect.block (s := S1x129) S1x129.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S65536x128.size a
  hwx0_7 : ∀ i : grid0.Coords, EltTy.bits .f32 = 32 ∨ (Rect.block (s := S65536x128) S4096x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x1.size a ≤ S65536x1.size a
  hwx0_8 : ∀ i : grid0.Coords, EltTy.bits .f32 = 32 ∨ (Rect.block (s := S65536x1) S4096x1.size (cc0_transform_8 i) (hinb0_8 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x129_S4096x129_1_0_0_1_n_n : DotDims S4096x256 S256x129 S4096x129 where
  lhsContracting := [1]
  rhsContracting := [0]
  lhsNonContracting := [0]
  rhsNonContracting := [1]
  lhsBatch := []
  rhsBatch := []
  wf := dot_S4096x256_S256x129_S4096x129_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x129.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x129.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S4096x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S4096x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.Spec.lean ====
/-
  The coupling layer as one function of the argument arrays, on the extended reals.

  A row `xr` of the input (128 entries) is split into its first 64 entries, which feed a three-layer
  conditioner, and its last 64 entries, which are scaled and shifted:
    hid1 k = max (∑ c<64, xr c · w1 c k + b1 k) 0
    hid2 k = max (∑ j, hid1 j · w2 j k + b2 k) 0
    par  l = ∑ k, hid2 k · w3 k l + b3 l           (l < 128: the first 64 are log-scales, the last 64 shifts)
    zrow l = xr l                                   for l < 64
           = xr l · exp (par (l - 64)) + par l      for 64 ≤ l
    ldet   = ∑ j<64, par j                          (the log-determinant: the sum of the log-scales)
  The whole arrays `Zarr`, `LDarr` apply these row by row.
-/
import Idealize.ShloMosaic.PureOps.Ideal
import Idealize.ShloMosaic.Lib.ValueIdx

noncomputable section

namespace Cert.Coupling

open Idealize.ShloMosaic Idealize.ShloMosaic.ValueIdx

/-- The first half of a row's coordinates, inside the row. -/
def lo (c : Fin 64) : Fin 128 := ⟨c.val, by omega⟩
/-- The second half of a row's coordinates, inside the row. -/
def hi (c : Fin 64) : Fin 128 := ⟨c.val + 64, by omega⟩

section Row
variable (w1 : Fin 64 → Fin 256 → EReal) (b1 : Fin 256 → EReal) (w2 : Fin 256 → Fin 256 → EReal) (b2 : Fin 256 → EReal)
  (w3 : Fin 256 → Fin 128 → EReal) (b3 : Fin 128 → EReal) (xr : Fin 128 → EReal)

/-- First hidden layer of the conditioner, on the row's first half. -/
def hid1 (k : Fin 256) : EReal := max (∑ c : Fin 64, xr (lo c) * w1 c k + b1 k) 0
/-- Second hidden layer. -/
def hid2 (k : Fin 256) : EReal := max (∑ j : Fin 256, hid1 w1 b1 xr j * w2 j k + b2 k) 0
/-- The conditioner's output: log-scales (first 64) and shifts (last 64). -/
def par (l : Fin 128) : EReal := ∑ k : Fin 256, hid2 w1 b1 w2 b2 xr k * w3 k l + b3 l
/-- The transformed row: first half passed through, second half scaled by the exponential of its log-scale and shifted. -/
def zrow (l : Fin 128) : EReal :=
  if h : l.val < 64 then xr l
  else xr l * Ideal.exp (par w1 b1 w2 b2 w3 b3 xr ⟨l.val - 64, by omega⟩) + par w1 b1 w2 b2 w3 b3 xr l
/-- The row's log-determinant: the sum of its 64 log-scales. -/
def ldet : EReal := ∑ j : Fin 64, par w1 b1 w2 b2 w3 b3 xr (lo j)

end Row

/-- Shapes of the seven arguments and the two results, spelt literally. -/
abbrev SX : Shape := ⟨2, ![65536, 128]⟩
abbrev SW1 : Shape := ⟨2, ![64, 256]⟩
abbrev SB : Shape := ⟨1, ![256]⟩
abbrev SW2 : Shape := ⟨2, ![256, 256]⟩
abbrev SW3 : Shape := ⟨2, ![256, 128]⟩
abbrev SB3 : Shape := ⟨1, ![128]⟩
abbrev SL : Shape := ⟨1, ![65536]⟩

/-- Every entry of an array is a real number (neither infinity). -/
def AllReal {S : Shape} (a : S.Idx → EReal) : Prop := ∀ i, ∃ r : ℝ, a i = (r : EReal)

section Packed
/-- The first-layer weights packed under 64 rows of zeros: 128 rows, of which the first 64 are `w1`. -/
def w1p (w1 : Fin 64 → Fin 256 → EReal) (c : Fin 128) (k : Fin 256) : EReal :=
  if h : c.val < 64 then w1 ⟨c.val, h⟩ k else 0
/-- The third-layer weights packed into 256 columns: zeros, the log-scale columns, zeros, the shift columns. -/
def w3p (w3 : Fin 256 → Fin 128 → EReal) (k : Fin 256) (q : Fin 256) : EReal :=
  if q.val < 64 then 0
  else if h : q.val < 128 then w3 k ⟨q.val - 64, by omega⟩
  else if q.val < 192 then 0
  else w3 k ⟨q.val - 128, by omega⟩
/-- The third-layer bias packed the same way. -/
def bp (b3 : Fin 128 → EReal) (q : Fin 256) : EReal :=
  if q.val < 64 then 0
  else if h : q.val < 128 then b3 ⟨q.val - 64, by omega⟩
  else if q.val < 192 then 0
  else b3 ⟨q.val - 128, by omega⟩
end Packed

section Arrays
variable (a0 : SX.Idx → EReal) (a1 : SW1.Idx → EReal) (a2 : SB.Idx → EReal) (a3 : SW2.Idx → EReal) (a4 : SB.Idx → EReal)
  (a5 : SW3.Idx → EReal) (a6 : SB3.Idx → EReal)

/-- Row `R` of the input array. -/
def rowOf (R : Fin 65536) : Fin 128 → EReal := fun l => a0 (ix2 R l)

/-- The first result: every row transformed. -/
def Zarr : SX.Idx → EReal := fun i =>
  zrow (fun c k => a1 (ix2 c k)) (fun k => a2 (ix1 k)) (fun j k => a3 (ix2 j k)) (fun k => a4 (ix1 k))
    (fun k l => a5 (ix2 k l)) (fun l => a6 (ix1 l)) (rowOf a0 (i 0)) (i 1)

/-- The second result: every row's log-determinant. -/
def LDarr : SL.Idx → EReal := fun i =>
  ldet (fun c k => a1 (ix2 c k)) (fun k => a2 (ix1 k)) (fun j k => a3 (ix2 j k)) (fun k => a4 (ix1 k))
    (fun k l => a5 (ix2 k l)) (fun l => a6 (ix1 l)) (rowOf a0 (i 0))

end Arrays

end Cert.Coupling

end
-- ==== Proof.Finite.lean ====
/-
  Reading finiteness out of the precondition.

  The precondition says, for each of the seven argument arrays, that |x| < +∞ at every entry (the
  entrywise verdicts reduced by "and", and the seven reductions and-ed together).  On the extended
  reals |x| = max x (-x), and max x (-x) < ⊤ excludes both x = ⊤ and x = ⊥, so every entry is a real.
-/
import proofs.«134817_g2000709431655183_pallaspilot1_68_15_alg».proof.Pre_finite_inputs
import proofs.«134817_g2000709431655183_pallaspilot1_68_15_alg».proof.Proof.Gen.Pre_finite_inputs
import proofs.«134817_g2000709431655183_pallaspilot1_68_15_alg».proof.Proof.Spec
import Idealize.ShloMosaic.Lib.ReduceAll

noncomputable section

namespace Cert.Coupling

open Idealize.ShloMosaic Idealize.ShloMosaic.ValueIdx

/-- The pattern 0x7F800000 denotes +∞. -/
theorem ofBits_inf : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The entrywise verdict "|x| < the number 0x7F800000 denotes" being 1 says x is a real. -/
theorem real_of_verdict (x : EReal)
    (h : Ideal.cmp .olt (max x (-x)) (Ideal.ofBits .f32 0x7F800000#32) = 1#1) : ∃ r : ℝ, x = (r : EReal) := by
  rw [ofBits_inf] at h
  refine real_of_abs_lt_top x ?_
  unfold Ideal.cmp at h
  by_contra hn
  simp [hn] at h

instance : Subsingleton Cert.Pre_finite_inputs.S_.Idx := ⟨fun a b => funext fun d => d.elim0⟩

/-- One array's verdict: if the "and" of all entrywise verdicts is 1, every entry is a real. -/
theorem allReal_of_verdict {s : Shape} {axes : List (Fin s.rank)}
    (bc : Cert.Pre_finite_inputs.S_.BroadcastsInDim s (![] : Fin 0 → Fin s.rank))
    (red : s.ReducesTo axes Cert.Pre_finite_inputs.S_) (hu : 0 < Cert.Pre_finite_inputs.S_.numel)
    (a : FVec Ideal s .f32) (j : Cert.Pre_finite_inputs.S_.Idx)
    (e : Host.reduce IntOp.andi
          (cmpf .olt (Host.absf a) (broadcastInDim s ![] bc (constant Cert.Pre_finite_inputs.S_ .f32 0x7F800000#32)))
          (constantI Cert.Pre_finite_inputs.S_ 1 1#1) red hu j = 1#1) :
    AllReal a := by
  intro i
  have hi := Host.reduce_andi_all _ _ red hu j e i
  exact real_of_verdict (a i) hi

/-- The precondition gives: every entry of every argument array is a real. -/
theorem allReal_of_pre [Cert.Pre_finite_inputs.Facts]
    (a0 : FVec Ideal Cert.Pre_finite_inputs.S65536x128 .f32) (a1 : FVec Ideal Cert.Pre_finite_inputs.S64x256 .f32)
    (a2 : FVec Ideal Cert.Pre_finite_inputs.S256 .f32) (a3 : FVec Ideal Cert.Pre_finite_inputs.S256x256 .f32)
    (a4 : FVec Ideal Cert.Pre_finite_inputs.S256 .f32) (a5 : FVec Ideal Cert.Pre_finite_inputs.S256x128 .f32)
    (a6 : FVec Ideal Cert.Pre_finite_inputs.S128 .f32)
    (h : Cert.Pre_finite_inputs.fn (F := Ideal) a0 a1 a2 a3 a4 a5 a6 = fun _ => 1#1) :
    AllReal a0 ∧ AllReal a1 ∧ AllReal a2 ∧ AllReal a3 ∧ AllReal a4 ∧ AllReal a5 ∧ AllReal a6 := by
  have e := congrFun h ValueIdx.ix0
  dsimp only [Cert.Pre_finite_inputs.fn, Cert.Pre_finite_inputs.fn_part1, andi] at e
  simp only [IntOp.andi_eq_one] at e
  obtain ⟨⟨⟨⟨⟨⟨e0, e1⟩, e2⟩, e3⟩, e4⟩, e5⟩, e6⟩ := e
  exact ⟨allReal_of_verdict _ _ _ a0 _ e0, allReal_of_verdict _ _ _ a1 _ e1, allReal_of_verdict _ _ _ a2 _ e2,
    allReal_of_verdict _ _ _ a3 _ e3, allReal_of_verdict _ _ _ a4 _ e4, allReal_of_verdict _ _ _ a5 _ e5,
    allReal_of_verdict _ _ _ a6 _ e6⟩

end Cert.Coupling

end
-- ==== Proof.KPieces.lean ====
/-
  What one grid point of the kernel leaves in its two output blocks and its three scratch buffers, as values.

  The body stores two half-blocks (4096 rows each) into the output block `z` and two 32×128 half-blocks into the
  log-determinant block; at the first grid point it first stores the three packed scratch buffers and reads them back.
  Each buffer after the body is the overlay of those stores; here each is written as ONE term over the pure payloads,
  with the scratch contents as parameters: at the first point they are the packed weights just stored, at a later
  point whatever the point before left.
-/
import proofs.«134817_g2000709431655183_pallaspilot1_68_15_alg».proof.Proof.Gen.KernelIdeal.Frame
import Idealize.ShloMosaic.Lib.ValueIdx
import Idealize.ShloMosaic.Lib.Pipeline.Value

set_option maxRecDepth 16384

noncomputable section

namespace Cert.KernelIdeal.KPieces

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

theorem hz2 : (![0, 0] : Fin 2 → Nat) = fun _ => 0 := funext fun a => by fin_cases a <;> rfl

/-- The two row halves of the 8192×128 output block. -/
abbrev R0 : Rect S8192x128 := Rect.unit (s := S8192x128) ![0, 0] S4096x128.size inb_S8192x128_S4096x128_0_0
abbrev R1 : Rect S8192x128 := Rect.unit (s := S8192x128) ![4096, 0] S4096x128.size inb_S8192x128_S4096x128_4096_0
/-- The two row halves of the 64×128 log-determinant block. -/
abbrev Q0 : Rect S64x128 := Rect.unit (s := S64x128) ![0, 0] S32x128.size inb_S64x128_S32x128_0_0
abbrev Q1 : Rect S64x128 := Rect.unit (s := S64x128) ![32, 0] S32x128.size inb_S64x128_S32x128_32_0
/-- The two column halves of the third-layer weights, and of its bias row. -/
abbrev C0 : Rect S256x128 := Rect.unit (s := S256x128) ![0, 0] S256x64.size inb_S256x128_S256x64_0_0
abbrev C1 : Rect S256x128 := Rect.unit (s := S256x128) ![0, 64] S256x64.size inb_S256x128_S256x64_0_64
abbrev D0 : Rect S1x128 := Rect.unit (s := S1x128) ![0, 0] S1x64.size inb_S1x128_S1x64_0_0
abbrev D1 : Rect S1x128 := Rect.unit (s := S1x128) ![0, 64] S1x64.size inb_S1x128_S1x64_0_64
/-- The first row of the 8×256 packed-bias scratch. -/
abbrev Rrow : Rect S8x256 := Rect.unit (s := S8x256) ![0, 0] S1x256.size inb_S8x256_S1x256_0_0

/-- The packed scratch contents the first grid point stores, from the loaded weights. -/
def sc0 (x1 : Vec F S64x256 .f32) : Vec F S128x256 .f32 := k0_pay1 x1
def sc1 (x5 : Vec F S256x128 .f32) : Vec F S256x256 .f32 := k0_pay2 (View.ld x5 C0) (View.ld x5 C1)
def sc2 (x6 : Vec F S1x128 .f32) : Vec F S8x256 .f32 := k0_pay3 (View.ld x6 D0) (View.ld x6 D1)

/-- The output block `z` after the body: the second half's store over the first half's, each the payload of its half of
    the input block, the biases and the scratch contents `s0 s1 s2`. -/
def blk7 (x0 : Vec F S8192x128 .f32) (x2 : Vec F S1x256 .f32) (x3 : Vec F S256x256 .f32) (x4 : Vec F S1x256 .f32)
    (s0 : Vec F S128x256 .f32) (s1 : Vec F S256x256 .f32) (s2 : Vec F S8x256 .f32) : Vec F S8192x128 .f32 :=
  View.canon [⟨R1, k0_pay10 (View.ld x0 R1) s0 x2 x3 x4 s1 (View.ld s2 Rrow)⟩,
    ⟨R0, k0_pay6 (View.ld x0 R0) s0 x2 x3 x4 s1 (View.ld s2 Rrow)⟩]

/-- The log-determinant block after the body, likewise. -/
def blk8 (x0 : Vec F S8192x128 .f32) (x2 : Vec F S1x256 .f32) (x3 : Vec F S256x256 .f32) (x4 : Vec F S1x256 .f32)
    (s0 : Vec F S128x256 .f32) (s1 : Vec F S256x256 .f32) (s2 : Vec F S8x256 .f32) : Vec F S64x128 .f32 :=
  View.canon [⟨Q1, k0_pay11 (View.ld x0 R1) s0 x2 x3 x4 s1 (View.ld s2 Rrow)⟩,
    ⟨Q0, k0_pay7 (View.ld x0 R0) s0 x2 x3 x4 s1 (View.ld s2 Rrow)⟩]

/-- A box loaded from a buffer that one whole-buffer store covers reads the stored value through the box. -/
theorem readCov_whole_ld {S : Shape} {e : EltTy} {sig' : RefSig} {κ : Kind} {sp : Space} (v : View sig' κ sp S e)
    {off : Fin S.rank → Nat} (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

section Cases
variable (c : Dev nD) (i : grid0.Coords) (arg1 : Memref sig .tc .vmem S8192x128 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S8192x128 .f32) (harg8 : arg8.IsWhole) (arg9 : Memref sig .tc .vmem S64x128 .f32) (harg9 : arg9.IsWhole) (arg10 : Memref sig .tc .vmem S128x256 .f32) (harg10 : arg10.IsWhole) (arg11 : Memref sig .tc .vmem S256x256 .f32) (harg11 : arg11.IsWhole) (arg12 : Memref sig .tc .vmem S8x256 .f32) (harg12 : arg12.IsWhole) (x0 : Vec F S8192x128 .f32) (x1 : Vec F S64x256 .f32) (x2 : Vec F S1x256 .f32) (x3 : Vec F S256x256 .f32) (x4 : Vec F S1x256 .f32) (x5 : Vec F S256x128 .f32) (x6 : Vec F S1x128 .f32)

/-- First point, output block. -/
theorem out_A_7 (hc0 : cond0_0 i) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = blk7 x0 x2 x3 x4 (sc0 x1) (sc1 x5) (sc2 x6) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  rw [View.readCov_unit_zero (S := S128x256) _ hz2, View.readCov_unit_zero (S := S256x256) _ hz2, readCov_whole_ld (S := S8x256) _ hz2]
  simp only [View.ld_unit_zero (S := S64x256) hz2, View.ld_unit_zero (S := S1x256) hz2, View.ld_unit_zero (S := S256x256) hz2]
  rfl

/-- First point, log-determinant block. -/
theorem out_A_8 (hc0 : cond0_0 i) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = blk8 x0 x2 x3 x4 (sc0 x1) (sc1 x5) (sc2 x6) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  rw [View.readCov_unit_zero (S := S128x256) _ hz2, View.readCov_unit_zero (S := S256x256) _ hz2, readCov_whole_ld (S := S8x256) _ hz2]
  simp only [View.ld_unit_zero (S := S64x256) hz2, View.ld_unit_zero (S := S1x256) hz2, View.ld_unit_zero (S := S256x256) hz2]
  rfl

/-- First point, the three scratch buffers. -/
theorem sout_A_0 (hc0 : cond0_0 i) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = sc0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread]
  rw [View.canon_unit_zero hz2]
  simp only [View.ld_unit_zero (S := S64x256) hz2]
  rfl

theorem sout_A_1 (hc0 : cond0_0 i) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = sc1 x5 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg6.read_unread]
  rw [View.canon_unit_zero hz2]
  rfl

theorem sout_A_2 (hc0 : cond0_0 i) :
    sout0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = sc2 x6 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg7.read_unread]
  rw [View.canon_unit_zero hz2]
  rfl

variable (xs0 : Vec F S128x256 .f32) (xs1 : Vec F S256x256 .f32) (xs2 : Vec F S8x256 .f32)

/-- A later point, output block: the scratch is what the point before left. -/
theorem out_B_7 (hc0 : ¬cond0_0 i) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = blk7 x0 x2 x3 x4 xs0 xs1 xs2 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp only [View.readAt_eq_ld, harg1.read_unread, harg3.read_unread, harg4.read_unread, harg5.read_unread, harg10.read_unread, harg11.read_unread, harg12.read_unread]
  simp only [View.ld_unit_zero (S := S128x256) hz2, View.ld_unit_zero (S := S1x256) hz2, View.ld_unit_zero (S := S256x256) hz2]
  rfl

/-- A later point, log-determinant block. -/
theorem out_B_8 (hc0 : ¬cond0_0 i) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = blk8 x0 x2 x3 x4 xs0 xs1 xs2 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp only [View.readAt_eq_ld, harg1.read_unread, harg3.read_unread, harg4.read_unread, harg5.read_unread, harg10.read_unread, harg11.read_unread, harg12.read_unread]
  simp only [View.ld_unit_zero (S := S128x256) hz2, View.ld_unit_zero (S := S1x256) hz2, View.ld_unit_zero (S := S256x256) hz2]
  rfl

end Cases

end Cert.KernelIdeal.KPieces

end
-- ==== Proof.KScratch.lean ====
/-
  The scratch buffers are written once, at the first grid point, and never again: after EVERY point they hold the
  packed weights computed from the weight blocks of the first point, and the two output blocks after a point are the
  body's payloads of that point's input blocks and of those packed weights. By induction on the point.
-/
import proofs.«134817_g2000709431655183_pallaspilot1_68_15_alg».proof.Proof.KPieces

set_option maxRecDepth 16384

noncomputable section

namespace Cert.KernelIdeal.KScratch

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.KPieces

variable {F : FTy → Type} [FloatOps F]
variable (m : (ℓ : Loc nD τ sig) → Buf (Elt F) ℓ)

/-- The first grid point. -/
def t0 : Fin cfg0.N := ⟨0, by rw [show cfg0.N = 8 from N_0]; decide⟩

/-- The seven input blocks at a grid point, at their literal shapes. -/
def X0 (c : Dev nD) (t : Fin cfg0.N) : Vec F S8192x128 .f32 := iblk m c 0 t
def X1 (c : Dev nD) (t : Fin cfg0.N) : Vec F S64x256 .f32 := iblk m c 1 t
def X2 (c : Dev nD) (t : Fin cfg0.N) : Vec F S1x256 .f32 := iblk m c 2 t
def X3 (c : Dev nD) (t : Fin cfg0.N) : Vec F S256x256 .f32 := iblk m c 3 t
def X4 (c : Dev nD) (t : Fin cfg0.N) : Vec F S1x256 .f32 := iblk m c 4 t
def X5 (c : Dev nD) (t : Fin cfg0.N) : Vec F S256x128 .f32 := iblk m c 5 t
def X6 (c : Dev nD) (t : Fin cfg0.N) : Vec F S1x128 .f32 := iblk m c 6 t

/-- The packed weights, from the weight blocks as the first point finds them. -/
def S0 (c : Dev nD) : Vec F S128x256 .f32 := sc0 (X1 m c t0)
def S1 (c : Dev nD) : Vec F S256x256 .f32 := sc1 (X5 m c t0)
def S2 (c : Dev nD) : Vec F S8x256 .f32 := sc2 (X6 m c t0)

/-- What the two output blocks and the three scratch buffers hold after point `t`, in closed form. -/
def closed (c : Dev nD) (t : Fin cfg0.N) : Vec F S8192x128 .f32 × Vec F S64x128 .f32 × Vec F S128x256 .f32 × Vec F S256x256 .f32 × Vec F S8x256 .f32 :=
  (blk7 (X0 m c t) (X2 m c t) (X3 m c t) (X4 m c t) (S0 m c) (S1 m c) (S2 m c),
   blk8 (X0 m c t) (X2 m c t) (X3 m c t) (X4 m c t) (S0 m c) (S1 m c) (S2 m c),
   S0 m c, S1 m c, S2 m c)

set_option maxHeartbeats 4000000 in
/-- After point `n`: the output blocks are the payloads of point `n`'s input blocks and the packed weights; the
    scratch still holds the packed weights. -/
theorem outsAt_eq (c : Dev nD) : ∀ (n : ℕ) (hn : n < cfg0.N), outsAt0 m c n hn = closed m c ⟨n, hn⟩
  | 0, hn => (outsAt0_A m c ⟨0, hn⟩ rfl).trans
      (congrArg₂ Prod.mk (out_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) (X0 m c ⟨0, hn⟩) (X1 m c ⟨0, hn⟩) (X2 m c ⟨0, hn⟩) (X3 m c ⟨0, hn⟩) (X4 m c ⟨0, hn⟩) (X5 m c ⟨0, hn⟩) (X6 m c ⟨0, hn⟩) ((hcond0_0 ⟨0, hn⟩).mpr rfl))
      (congrArg₂ Prod.mk (out_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) (X0 m c ⟨0, hn⟩) (X1 m c ⟨0, hn⟩) (X2 m c ⟨0, hn⟩) (X3 m c ⟨0, hn⟩) (X4 m c ⟨0, hn⟩) (X5 m c ⟨0, hn⟩) (X6 m c ⟨0, hn⟩) ((hcond0_0 ⟨0, hn⟩).mpr rfl))
      (congrArg₂ Prod.mk (sout_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) (X0 m c ⟨0, hn⟩) (X1 m c ⟨0, hn⟩) (X2 m c ⟨0, hn⟩) (X3 m c ⟨0, hn⟩) (X4 m c ⟨0, hn⟩) (X5 m c ⟨0, hn⟩) (X6 m c ⟨0, hn⟩) ((hcond0_0 ⟨0, hn⟩).mpr rfl))
      (congrArg₂ Prod.mk (sout_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) (X0 m c ⟨0, hn⟩) (X1 m c ⟨0, hn⟩) (X2 m c ⟨0, hn⟩) (X3 m c ⟨0, hn⟩) (X4 m c ⟨0, hn⟩) (X5 m c ⟨0, hn⟩) (X6 m c ⟨0, hn⟩) ((hcond0_0 ⟨0, hn⟩).mpr rfl))
        (sout_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) (X0 m c ⟨0, hn⟩) (X1 m c ⟨0, hn⟩) (X2 m c ⟨0, hn⟩) (X3 m c ⟨0, hn⟩) (X4 m c ⟨0, hn⟩) (X5 m c ⟨0, hn⟩) (X6 m c ⟨0, hn⟩) ((hcond0_0 ⟨0, hn⟩).mpr rfl))))))
  | n + 1, hn => by
    have hN : cfg0.N = 8 := N_0
    have hB : ¬(⟨n + 1, hn⟩ : Fin cfg0.N).val % 8 = 0 := by dsimp only; omega
    have ih := outsAt_eq c n (by omega)
    refine (outsAt0_B m c ⟨n + 1, hn⟩ hB).trans ?_
    have e0 : (outsAt0 m c ((⟨n + 1, hn⟩ : Fin cfg0.N).val - 1) (Nat.lt_of_le_of_lt (Nat.sub_le _ _) (⟨n + 1, hn⟩ : Fin cfg0.N).isLt)) = closed m c ⟨n, by omega⟩ := ih
    rw [e0]
    exact congrArg₂ Prod.mk (out_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (X0 m c ⟨n + 1, hn⟩) (X1 m c ⟨n + 1, hn⟩) (X2 m c ⟨n + 1, hn⟩) (X3 m c ⟨n + 1, hn⟩) (X4 m c ⟨n + 1, hn⟩) (X5 m c ⟨n + 1, hn⟩) (X6 m c ⟨n + 1, hn⟩) (S0 m c) (S1 m c) (S2 m c) (fun h => hB ((hcond0_0 ⟨n + 1, hn⟩).mp h)))
      (congrArg₂ Prod.mk (out_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (X0 m c ⟨n + 1, hn⟩) (X1 m c ⟨n + 1, hn⟩) (X2 m c ⟨n + 1, hn⟩) (X3 m c ⟨n + 1, hn⟩) (X4 m c ⟨n + 1, hn⟩) (X5 m c ⟨n + 1, hn⟩) (X6 m c ⟨n + 1, hn⟩) (S0 m c) (S1 m c) (S2 m c) (fun h => hB ((hcond0_0 ⟨n + 1, hn⟩).mp h))) rfl)

end Cert.KernelIdeal.KScratch

end
-- ==== Proof.KCover.lean ====
/-
  The two output arrays are tiled by the eight grid points' blocks: row `r` of the 65536×128 array `z` lies in the block of
  point `r / 8192`, and row `r` of the 512×128 log-determinant array in the block of point `r / 64`.
-/
import proofs.«134817_g2000709431655183_pallaspilot1_68_15_alg».proof.Proof.Gen.KernelIdeal.Frame
import Idealize.ShloMosaic.Lib.ValueIdx
import Idealize.ShloMosaic.Lib.Pipeline.Value

set_option maxRecDepth 16384

noncomputable section

namespace Cert.KernelIdeal.KCover

open Idealize.ShloMosaic Idealize.ShloMosaic.TcCoe Idealize.ShloMosaic.ValueIdx
open Idealize.SL Idealize.SL.Sem
open Cert.KernelIdeal Cert.KernelIdeal.Gen

variable {F : FTy → Type} [FloatOps F]

/-- The two output windows' index maps over the grid: block `t` along the rows, the one block along the lanes. -/
theorem idx78 : ∀ t : Fin cfg0.N, win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- An index of `z` is in point `t`'s block iff each coordinate is in the block's range on its axis. -/
theorem mem_blk7 (t : Fin cfg0.N) (i : S65536x128.Idx) :
    i ∈ ((cfg0.win 7).blk t).view.set ↔ ∀ a : Fin 2, win0_7.index t a * S8192x128.size a ≤ (i a).val ∧ (i a).val < win0_7.index t a * S8192x128.size a + S8192x128.size a := by
  show i ∈ ((View.whole main_v3_0).slice (win0_7.rect t)).set ↔ _
  rw [View.set_slice_whole, Rect.mem_set_unit]
  exact Iff.rfl

/-- The same for the log-determinant array. -/
theorem mem_blk8 (t : Fin cfg0.N) (i : S512x128.Idx) :
    i ∈ ((cfg0.win 8).blk t).view.set ↔ ∀ a : Fin 2, win0_8.index t a * S64x128.size a ≤ (i a).val ∧ (i a).val < win0_8.index t a * S64x128.size a + S64x128.size a := by
  show i ∈ ((View.whole main_v3_1).slice (win0_8.rect t)).set ↔ _
  rw [View.set_slice_whole, Rect.mem_set_unit]
  exact Iff.rfl

/-- Every index of `z` is in the block of the point its row selects. -/
theorem cover7 (i : S65536x128.Idx) : ∃ t : Fin cfg0.N, (cfg0.win 7).flush t = true ∧ i ∈ ((cfg0.win 7).blk t).view.set := by
  have hN : cfg0.N = 8 := N_0
  have h0 : (i 0).val < 65536 := (i 0).isLt
  have h1 : (i 1).val < 128 := (i 1).isLt
  have ht : (i 0).val / 8192 < cfg0.N := by omega
  obtain ⟨e0, e1, -, -⟩ := idx78 ⟨(i 0).val / 8192, ht⟩
  refine ⟨⟨(i 0).val / 8192, ht⟩, flush0_7 _, ?_⟩
  rw [mem_blk7]
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_7.index ⟨(i 0).val / 8192, ht⟩ (1 : Fin 2) * 128 ≤ (i 1).val ∧ (i 1).val < win0_7.index ⟨(i 0).val / 8192, ht⟩ (1 : Fin 2) * 128 + 128
    rw [e1]; omega

/-- Every index of the log-determinant array is in the block of the point its row selects. -/
theorem cover8 (i : S512x128.Idx) : ∃ t : Fin cfg0.N, (cfg0.win 8).flush t = true ∧ i ∈ ((cfg0.win 8).blk t).view.set := by
  have hN : cfg0.N = 8 := N_0
  have h0 : (i 0).val < 512 := (i 0).isLt
  have h1 : (i 1).val < 128 := (i 1).isLt
  have ht : (i 0).val / 64 < cfg0.N := by omega
  obtain ⟨-, -, e0, e1⟩ := idx78 ⟨(i 0).val / 64, ht⟩
  refine ⟨⟨(i 0).val / 64, ht⟩, flush0_8 _, ?_⟩
  rw [mem_blk8]
  intro a
  match a with
  | ⟨0, _⟩ =>
    show win0_8.index ⟨(i 0).val / 64, ht⟩ (0 : Fin 2) * 64 ≤ (i 0).val ∧ (i 0).val < win0_8.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_8.index ⟨(i 0).val / 64, ht⟩ (1 : Fin 2) * 128 ≤ (i 1).val ∧ (i 1).val < win0_8.index ⟨(i 0).val / 64, ht⟩ (1 : Fin 2) * 128 + 128
    rw [e1]; omega

/-- The array index of a block's coordinate: block `t` of `z` at row `R`, lane `l` is row `t·8192 + R`. -/
theorem emb7 (t : Fin cfg0.N) (R : Fin 8192) (l : Fin 128) (R' : Fin 65536) (hR' : R'.val = t.val * 8192 + R.val) :
    ((cfg0.win 7).blk t).view.emb (ix2 R l) = ix2 R' l := by
  obtain ⟨e0, e1, -, -⟩ := idx78 t
  funext a; apply Fin.ext
  match a with
  | ⟨0, _⟩ => show win0_7.index t (0 : Fin 2) * 8192 + 1 * R.val = R'.val; rw [e0, hR']; omega
  | ⟨1, _⟩ => show win0_7.index t (1 : Fin 2) * 128 + 1 * l.val = l.val; rw [e1]; omega

/-- Block `t` of the log-determinant array at `(a, b)` is row `t·64 + a`. -/
theorem emb8 (t : Fin cfg0.N) (a : Fin 64) (b : Fin 128) (a' : Fin 512) (ha' : a'.val = t.val * 64 + a.val) :
    ((cfg0.win 8).blk t).view.emb (ix2 a b) = ix2 a' b := by
  obtain ⟨-, -, e0, e1⟩ := idx78 t
  funext x; apply Fin.ext
  match x with
  | ⟨0, _⟩ => show win0_8.index t (0 : Fin 2) * 64 + 1 * a.val = a'.val; rw [e0, ha']; omega
  | ⟨1, _⟩ => show win0_8.index t (1 : Fin 2) * 128 + 1 * b.val = b.val; rw [e1]; omega

end Cert.KernelIdeal.KCover

end
-- ==== Proof.KIn.lean ====
/-
  What the seven input blocks hold, read at an index.

  Window 0 cuts the input into 8 row blocks of 8192 rows: the block at grid point t, read at row R, is the
  input at row t * 8192 + R.  Windows 1 to 6 each stage one block, the whole array, at every point; the
  three bias arrays reach their windows through a reshape from [n] to [1, n], which reads the same entry.
-/
import proofs.«134817_g2000709431655183_pallaspilot1_68_15_alg».proof.Proof.KScratch
import Idealize.ShloMosaic.Lib.ValueLayout
import Idealize.ShloMosaic.Lib.Pipeline.Value
import Idealize.ShloMosaic.Lib.StableHlo.Run

set_option maxRecDepth 16384

noncomputable section

namespace Cert.KernelIdeal.KIn

open Idealize.ShloMosaic Idealize.ShloMosaic.TcCoe Idealize.ShloMosaic.Tactic Idealize.ShloMosaic.ValueIdx Idealize.SL.Sem
open Cert.KernelIdeal Cert.KernelIdeal.Gen Cert.KernelIdeal.KScratch

variable (m : (ℓ : Loc nD τ sig) → Buf (Elt Ideal) ℓ)

/-- The windows' block indices at every grid point: window 0 walks the row blocks, the others stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row R of the block of window 0 at point t is row t * 8192 + R of the input. -/
theorem X0_apply (c : Dev nD) (t : Fin cfg0.N) (R : Fin 8192) (l : Fin 128) :
    X0 m c t (ix2 R l) = m ((c.tc : Thread nD τ).loc main_arg0)
      (ix2 (⟨t.val * 8192 + R.val, by have := t.isLt; have hN : cfg0.N = 8 := N_0; have := R.isLt; omega⟩ : Fin 65536) l) := by
  obtain ⟨e0, e1, -⟩ := idx_facts t
  unfold X0 iblk
  rw [View.read_apply]
  show V m c main_arg0 _ = _
  rw [V_main_arg0]
  refine congrArg _ (funext fun a => Fin.ext ?_)
  match a with
  | ⟨0, _⟩ => show win0_0.index t (0 : Fin 2) * 8192 + 1 * R.val = t.val * 8192 + R.val; rw [e0]; omega
  | ⟨1, _⟩ => show win0_0.index t (1 : Fin 2) * 128 + 1 * l.val = l.val; rw [e1]; omega

/-- The block of window 1 is the whole first-layer weight array. -/
theorem X1_apply (c : Dev nD) (t : Fin cfg0.N) (c' : Fin 64) (k : Fin 256) :
    X1 m c t (ix2 c' k) = m ((c.tc : Thread nD τ).loc main_arg1) (ix2 c' k) := by
  obtain ⟨-, -, e0, e1, -⟩ := idx_facts t
  unfold X1 iblk
  rw [View.read_apply]
  show V m c main_arg1 _ = _
  rw [V_main_arg1]
  refine congrArg _ (funext fun a => Fin.ext ?_)
  match a with
  | ⟨0, _⟩ => show win0_1.index t (0 : Fin 2) * 64 + 1 * c'.val = c'.val; rw [e0]; omega
  | ⟨1, _⟩ => show win0_1.index t (1 : Fin 2) * 256 + 1 * k.val = k.val; rw [e1]; omega

/-- The array window 2 stages is the first-layer bias reshaped from [256] to [1, 256]. -/
theorem V_main_v0 (c : Dev nD) :
    (V m c main_v0 : S1x256.Idx → EReal) = shapeCast S1x256 (m ((c.tc : Thread nD τ).loc main_arg2)) shapeCasts_S256_S1x256 := by
  show StableHlo.after hostOps0 (fun b => m (c, b)) (Proc.devRef .tc main_v0) = _
  after_results
  rfl

/-- The block of window 2 is the whole first-layer bias, as one row. -/
theorem X2_apply (c : Dev nD) (t : Fin cfg0.N) (k : Fin 256) :
    X2 m c t (ix2 (0 : Fin 1) k) = m ((c.tc : Thread nD τ).loc main_arg2) (ix1 k) := by
  obtain ⟨-, -, -, -, e0, e1, -⟩ := idx_facts t
  have h0 : ((0 : Fin 1) : ℕ) = 0 := rfl
  unfold X2 iblk
  rw [View.read_apply]
  show V m c main_v0 _ = _
  refine (congrArg (V m c main_v0) (funext fun a => Fin.ext ?_)).trans
    ((congrFun (V_main_v0 m c) (ix2 (0 : Fin 1) k)).trans (ValueIdx.shapeCast_a_1a_apply _ _ 0 k))
  match a with
  | ⟨0, _⟩ => show win0_2.index t (0 : Fin 2) * 1 + 1 * ((0 : Fin 1) : ℕ) = ((0 : Fin 1) : ℕ); rw [e0]; omega
  | ⟨1, _⟩ => show win0_2.index t (1 : Fin 2) * 256 + 1 * k.val = k.val; rw [e1]; omega

/-- The block of window 3 is the whole second-layer weight array. -/
theorem X3_apply (c : Dev nD) (t : Fin cfg0.N) (j : Fin 256) (k : Fin 256) :
    X3 m c t (ix2 j k) = m ((c.tc : Thread nD τ).loc main_arg3) (ix2 j k) := by
  obtain ⟨-, -, -, -, -, -, e0, e1, -⟩ := idx_facts t
  unfold X3 iblk
  rw [View.read_apply]
  show V m c main_arg3 _ = _
  rw [V_main_arg3]
  refine congrArg _ (funext fun a => Fin.ext ?_)
  match a with
  | ⟨0, _⟩ => show win0_3.index t (0 : Fin 2) * 256 + 1 * j.val = j.val; rw [e0]; omega
  | ⟨1, _⟩ => show win0_3.index t (1 : Fin 2) * 256 + 1 * k.val = k.val; rw [e1]; omega

/-- The array window 4 stages is the second-layer bias reshaped from [256] to [1, 256]. -/
theorem V_main_v1 (c : Dev nD) :
    (V m c main_v1 : S1x256.Idx → EReal) = shapeCast S1x256 (m ((c.tc : Thread nD τ).loc main_arg4)) shapeCasts_S256_S1x256 := by
  show StableHlo.after hostOps0 (fun b => m (c, b)) (Proc.devRef .tc main_v1) = _
  after_results
  rfl

/-- The block of window 4 is the whole second-layer bias, as one row. -/
theorem X4_apply (c : Dev nD) (t : Fin cfg0.N) (k : Fin 256) :
    X4 m c t (ix2 (0 : Fin 1) k) = m ((c.tc : Thread nD τ).loc main_arg4) (ix1 k) := by
  obtain ⟨-, -, -, -, -, -, -, -, e0, e1, -⟩ := idx_facts t
  have h0 : ((0 : Fin 1) : ℕ) = 0 := rfl
  unfold X4 iblk
  rw [View.read_apply]
  show V m c main_v1 _ = _
  refine (congrArg (V m c main_v1) (funext fun a => Fin.ext ?_)).trans
    ((congrFun (V_main_v1 m c) (ix2 (0 : Fin 1) k)).trans (ValueIdx.shapeCast_a_1a_apply _ _ 0 k))
  match a with
  | ⟨0, _⟩ => show win0_4.index t (0 : Fin 2) * 1 + 1 * ((0 : Fin 1) : ℕ) = ((0 : Fin 1) : ℕ); rw [e0]; omega
  | ⟨1, _⟩ => show win0_4.index t (1 : Fin 2) * 256 + 1 * k.val = k.val; rw [e1]; omega

/-- The block of window 5 is the whole third-layer weight array. -/
theorem X5_apply (c : Dev nD) (t : Fin cfg0.N) (k : Fin 256) (l : Fin 128) :
    X5 m c t (ix2 k l) = m ((c.tc : Thread nD τ).loc main_arg5) (ix2 k l) := by
  obtain ⟨-, -, -, -, -, -, -, -, -, -, e0, e1, -⟩ := idx_facts t
  unfold X5 iblk
  rw [View.read_apply]
  show V m c main_arg5 _ = _
  rw [V_main_arg5]
  refine congrArg _ (funext fun a => Fin.ext ?_)
  match a with
  | ⟨0, _⟩ => show win0_5.index t (0 : Fin 2) * 256 + 1 * k.val = k.val; rw [e0]; omega
  | ⟨1, _⟩ => show win0_5.index t (1 : Fin 2) * 128 + 1 * l.val = l.val; rw [e1]; omega

/-- The array window 6 stages is the third-layer bias reshaped from [128] to [1, 128]. -/
theorem V_main_v2 (c : Dev nD) :
    (V m c main_v2 : S1x128.Idx → EReal) = shapeCast S1x128 (m ((c.tc : Thread nD τ).loc main_arg6)) shapeCasts_S128_S1x128 := by
  show StableHlo.after hostOps0 (fun b => m (c, b)) (Proc.devRef .tc main_v2) = _
  after_results
  rfl

/-- The block of window 6 is the whole third-layer bias, as one row. -/
theorem X6_apply (c : Dev nD) (t : Fin cfg0.N) (l : Fin 128) :
    X6 m c t (ix2 (0 : Fin 1) l) = m ((c.tc : Thread nD τ).loc main_arg6) (ix1 l) := by
  obtain ⟨-, -, -, -, -, -, -, -, -, -, -, -, e0, e1⟩ := idx_facts t
  have h0 : ((0 : Fin 1) : ℕ) = 0 := rfl
  unfold X6 iblk
  rw [View.read_apply]
  show V m c main_v2 _ = _
  refine (congrArg (V m c main_v2) (funext fun a => Fin.ext ?_)).trans
    ((congrFun (V_main_v2 m c) (ix2 (0 : Fin 1) l)).trans (ValueIdx.shapeCast_a_1a_apply _ _ 0 l))
  match a with
  | ⟨0, _⟩ => show win0_6.index t (0 : Fin 2) * 1 + 1 * ((0 : Fin 1) : ℕ) = ((0 : Fin 1) : ℕ); rw [e0]; omega
  | ⟨1, _⟩ => show win0_6.index t (1 : Fin 2) * 128 + 1 * l.val = l.val; rw [e1]; omega

end Cert.KernelIdeal.KIn

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.AlgebraSums.lean ====
/-
  Splitting a sum over the 128 coordinates of a row into its two halves of 64, and the two
  consequences used for the packed first-layer weights and for sums whose first half vanishes.
  Everything here holds on all of the extended reals: x * 0 = 0 there without any finiteness.
-/
import proofs.«134817_g2000709431655183_pallaspilot1_68_15_alg».proof.Proof.Spec

noncomputable section

namespace Cert.Coupling

/-- A sum over a row's 128 coordinates is the sum over its first half plus the sum over its second half. -/
theorem sum_split (g : Fin 128 → EReal) :
    ∑ l : Fin 128, g l = ∑ j : Fin 64, g (lo j) + ∑ j : Fin 64, g (hi j) := by
  have h := Fin.sum_univ_add (M := EReal) (a := 64) (b := 64) (fun i => g i)
  have hlo : ∀ j : Fin 64, (Fin.castAdd 64 j : Fin (64 + 64)) = lo j := fun j => Fin.ext rfl
  have hhi : ∀ j : Fin 64, (Fin.natAdd 64 j : Fin (64 + 64)) = hi j := fun j =>
    Fin.ext (by show 64 + j.val = j.val + 64; omega)
  refine h.trans ?_
  simp only [hlo, hhi]

theorem w1p_lo (w1 : Fin 64 → Fin 256 → EReal) (c : Fin 64) (k : Fin 256) : w1p w1 (lo c) k = w1 c k := by
  have h : (lo c).val < 64 := c.isLt
  unfold w1p
  rw [dif_pos h]
  rfl

theorem w1p_hi (w1 : Fin 64 → Fin 256 → EReal) (c : Fin 64) (k : Fin 256) : w1p w1 (hi c) k = 0 := by
  have h : ¬ (hi c).val < 64 := by show ¬ (c.val + 64 < 64); omega
  unfold w1p
  rw [dif_neg h]

/-- Against the packed weights (the true weights above 64 rows of zeros) only the first half of the
    row contributes. -/
theorem sum_w1p (f : Fin 128 → EReal) (w1 : Fin 64 → Fin 256 → EReal) (k : Fin 256) :
    ∑ c : Fin 128, f c * w1p w1 c k = ∑ c : Fin 64, f (lo c) * w1 c k := by
  rw [sum_split]
  have hz : ∑ j : Fin 64, f (hi j) * w1p w1 (hi j) k = 0 :=
    Finset.sum_eq_zero (fun j _ => by rw [w1p_hi, mul_zero])
  rw [hz, add_zero]
  exact Finset.sum_congr rfl (fun j _ => by rw [w1p_lo])

/-- A sum over the row whose first 64 terms vanish is the sum over the second half. -/
theorem sum_low_zero (g : Fin 128 → EReal) (h0 : ∀ l : Fin 128, l.val < 64 → g l = 0) :
    ∑ l : Fin 128, g l = ∑ j : Fin 64, g (hi j) := by
  rw [sum_split]
  have hz : ∑ j : Fin 64, g (lo j) = 0 :=
    Finset.sum_eq_zero (fun j _ => h0 (lo j) j.isLt)
  rw [hz, zero_add]

end Cert.Coupling

end
-- ==== Proof.KPayload.lean ====
/-
  What the kernel's pure payloads compute, read at one index, on the extended reals.

  The three packed scratch arrays: the first-layer weights over 64 rows of zeros; the third-layer weights in 256
  columns (zeros, the log-scale columns, zeros, the shift columns); the third-layer bias packed the same way and
  repeated in 8 rows. Then one half of a grid point (4096 rows): three matrix products, each followed by a bias row
  and (for the first two) a maximum with zero, give a 256-column block whose first 128 columns hold, lane by lane,
  zero or a log-scale and whose last 128 columns hold zero or a shift; the transformed row is x * exp(first) + last
  and the log-determinant is the sum of the first 128 columns.
-/
import proofs.«134817_g2000709431655183_pallaspilot1_68_15_alg».proof.Proof.Gen.KernelIdeal.Skeleton
import proofs.«134817_g2000709431655183_pallaspilot1_68_15_alg».proof.Proof.Spec
import proofs.«134817_g2000709431655183_pallaspilot1_68_15_alg».proof.Proof.LibPlainProduct
import proofs.«134817_g2000709431655183_pallaspilot1_68_15_alg».proof.Proof.AlgebraSums
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen Cert.Coupling Idealize.ShloMosaic Idealize.ShloMosaic.ValueIdx

variable [Cert.KernelIdeal.Facts]

/-- The zero word read as an extended real. -/
theorem zero_word : (Scalar.ofBits .f32 0x00000000#32 : Ideal .f32) = 0 := Ideal.ofBits_zero_f32

/-- scratch 0: w1 over 64 zero rows -/
theorem pay1_apply (v65 : FVec Ideal S64x256 .f32) (c : Fin 128) (k : Fin 256) :
    k0_pay1 (F := Ideal) v65 (ix2 c k) = w1p (fun c k => v65 (ix2 c k)) c k := by
  unfold k0_pay1
  rw [shapeCast_self]
  unfold w1p
  by_cases h : c.val < 64
  · rw [dif_pos h]
    refine concatenate_pair_apply_left (t := S128x256) (s₁ := S64x256) (s₂ := S64x256) (0 : Fin 2) _ _ _ (ix2 c k) rfl (ix2 (⟨c.val, h⟩ : Fin 64) k) fun b => ?_
    match b with
    | ⟨0, _⟩ => rfl
    | ⟨1, _⟩ => rfl
  · rw [dif_neg h]
    refine (concatenate_pair_apply_right (t := S128x256) (s₁ := S64x256) (s₂ := S64x256) (0 : Fin 2) _ _ _ (ix2 c k) rfl rfl
      (ix2 (⟨c.val - 64, by omega⟩ : Fin 64) k) (fun b hb => ?_) ?_).trans zero_word
    · match b with
      | ⟨0, _⟩ => exact absurd rfl hb
      | ⟨1, _⟩ => rfl
    · show c.val - 64 + 64 = c.val
      omega

/-- Four blocks of 64 columns laid side by side: column `q` of the result is column `q mod 64` of block `q / 64`. -/
theorem concat4_apply {α : Type} {n : Nat} (x0 x1 x2 x3 : (⟨2, ![n, 64]⟩ : Shape).Idx → α)
    (h : Shape.Concatenates [(⟨2, ![n, 64]⟩ : Shape), ⟨2, ![n, 64]⟩, ⟨2, ![n, 64]⟩, ⟨2, ![n, 64]⟩] ⟨2, ![n, 256]⟩ 1)
    (a : Fin n) (q : Fin 256) :
    concatenate (⟨2, ![n, 256]⟩ : Shape) 1 [⟨⟨2, ![n, 64]⟩, x0⟩, ⟨⟨2, ![n, 64]⟩, x1⟩, ⟨⟨2, ![n, 64]⟩, x2⟩, ⟨⟨2, ![n, 64]⟩, x3⟩] h (ix2 a q)
      = if h0 : q.val < 64 then x0 (ix2 a ⟨q.val, h0⟩)
        else if h1 : q.val < 128 then x1 (ix2 a ⟨q.val - 64, by omega⟩)
        else if h2 : q.val < 192 then x2 (ix2 a ⟨q.val - 128, by omega⟩)
        else x3 (ix2 a ⟨q.val - 192, by have := q.isLt; omega⟩) := by
  have hq := q.isLt
  by_cases h0 : q.val < 64
  · rw [dif_pos h0]
    refine concatenate_apply_piece (t := (⟨2, ![n, 256]⟩ : Shape)) (1 : Fin 2) [⟨⟨2, ![n, 64]⟩, x0⟩, ⟨⟨2, ![n, 64]⟩, x1⟩, ⟨⟨2, ![n, 64]⟩, x2⟩, ⟨⟨2, ![n, 64]⟩, x3⟩] h (ix2 a q) 0 (by simp) ⟨2, ![n, 64]⟩ x0 rfl rfl 0 rfl
      (ix2 a ⟨q.val, h0⟩) (fun b hb => ?_) ?_
    · match b with
      | ⟨0, _⟩ => rfl
      | ⟨1, _⟩ => exact absurd rfl hb
    · show 0 + q.val = q.val
      omega
  · rw [dif_neg h0]
    by_cases h1 : q.val < 128
    · rw [dif_pos h1]
      refine concatenate_apply_piece (t := (⟨2, ![n, 256]⟩ : Shape)) (1 : Fin 2) [⟨⟨2, ![n, 64]⟩, x0⟩, ⟨⟨2, ![n, 64]⟩, x1⟩, ⟨⟨2, ![n, 64]⟩, x2⟩, ⟨⟨2, ![n, 64]⟩, x3⟩] h (ix2 a q) 1 (by simp) ⟨2, ![n, 64]⟩ x1 rfl rfl 64 rfl
        (ix2 a ⟨q.val - 64, by omega⟩) (fun b hb => ?_) ?_
      · match b with
        | ⟨0, _⟩ => rfl
        | ⟨1, _⟩ => exact absurd rfl hb
      · show 64 + (q.val - 64) = q.val
        omega
    · rw [dif_neg h1]
      by_cases h2 : q.val < 192
      · rw [dif_pos h2]
        refine concatenate_apply_piece (t := (⟨2, ![n, 256]⟩ : Shape)) (1 : Fin 2) [⟨⟨2, ![n, 64]⟩, x0⟩, ⟨⟨2, ![n, 64]⟩, x1⟩, ⟨⟨2, ![n, 64]⟩, x2⟩, ⟨⟨2, ![n, 64]⟩, x3⟩] h (ix2 a q) 2 (by simp) ⟨2, ![n, 64]⟩ x2 rfl rfl 128 rfl
          (ix2 a ⟨q.val - 128, by omega⟩) (fun b hb => ?_) ?_
        · match b with
          | ⟨0, _⟩ => rfl
          | ⟨1, _⟩ => exact absurd rfl hb
        · show 128 + (q.val - 128) = q.val
          omega
      · rw [dif_neg h2]
        refine concatenate_apply_piece (t := (⟨2, ![n, 256]⟩ : Shape)) (1 : Fin 2) [⟨⟨2, ![n, 64]⟩, x0⟩, ⟨⟨2, ![n, 64]⟩, x1⟩, ⟨⟨2, ![n, 64]⟩, x2⟩, ⟨⟨2, ![n, 64]⟩, x3⟩] h (ix2 a q) 3 (by simp) ⟨2, ![n, 64]⟩ x3 rfl rfl 192 rfl
          (ix2 a ⟨q.val - 192, by omega⟩) (fun b hb => ?_) ?_
        · match b with
          | ⟨0, _⟩ => rfl
          | ⟨1, _⟩ => exact absurd rfl hb
        · show 192 + (q.val - 192) = q.val
          omega

/-- scratch 1: [0 | first 64 columns of w3 | 0 | last 64 columns]; v72, v73 are the two loaded halves of w3 -/
theorem pay2_apply (v72 v73 : FVec Ideal S256x64 .f32) (w3 : Fin 256 → Fin 128 → EReal)
    (h72 : ∀ (k : Fin 256) (j : Fin 64), v72 (ix2 k j) = w3 k (lo j)) (h73 : ∀ (k : Fin 256) (j : Fin 64), v73 (ix2 k j) = w3 k (hi j))
    (k q : Fin 256) : k0_pay2 (F := Ideal) v72 v73 (ix2 k q) = w3p w3 k q := by
  have hq := q.isLt
  unfold k0_pay2
  rw [shapeCast_self]
  refine (concat4_apply _ _ _ _ _ k q).trans ?_
  unfold w3p
  by_cases h0 : q.val < 64
  · rw [dif_pos h0, if_pos h0]; exact zero_word
  · rw [dif_neg h0, if_neg h0]
    by_cases h1 : q.val < 128
    · rw [dif_pos h1, dif_pos h1]; exact h72 k _
    · rw [dif_neg h1, dif_neg h1]
      by_cases h2 : q.val < 192
      · rw [dif_pos h2, if_pos h2]; exact zero_word
      · rw [dif_neg h2, if_neg h2]
        refine (h73 k _).trans (congrArg (w3 k) (Fin.ext ?_))
        show q.val - 192 + 64 = q.val - 128
        omega

/-- scratch 2: the packed bias in every one of the 8 rows -/
theorem pay3_apply (v79 v81 : FVec Ideal S1x64 .f32) (b3 : Fin 128 → EReal)
    (h79 : ∀ j : Fin 64, v79 (ix2 (0 : Fin 1) j) = b3 (lo j)) (h81 : ∀ j : Fin 64, v81 (ix2 (0 : Fin 1) j) = b3 (hi j))
    (a : Fin 8) (q : Fin 256) : k0_pay3 (F := Ideal) v79 v81 (ix2 a q) = bp b3 q := by
  have hq := q.isLt
  unfold k0_pay3
  rw [shapeCast_self, shapeCast_self, shapeCast_self, shapeCast_self]
  refine (broadcastTo_1b_ab_apply _ _ a q).trans ?_
  refine (concat4_apply _ _ _ _ _ (0 : Fin 1) q).trans ?_
  unfold bp
  by_cases h0 : q.val < 64
  · rw [dif_pos h0, if_pos h0]; exact zero_word
  · rw [dif_neg h0, if_neg h0]
    by_cases h1 : q.val < 128
    · rw [dif_pos h1, dif_pos h1]; exact h79 _
    · rw [dif_neg h1, dif_neg h1]
      by_cases h2 : q.val < 192
      · rw [dif_pos h2, if_pos h2]; exact zero_word
      · rw [dif_neg h2, if_neg h2]
        refine (h81 _).trans (congrArg b3 (Fin.ext ?_))
        show q.val - 192 + 64 = q.val - 128
        omega

/-! ## One half of a grid point: the three layers -/

/-- A dense layer read at an entry: the product into zero plus the bias row. -/
theorem layer_apply {m k n : Nat} (A : FVec Ideal ⟨2, ![m, k]⟩ .f32) (B : FVec Ideal ⟨2, ![k, n]⟩ .f32)
    (bias : FVec Ideal ⟨2, ![1, n]⟩ .f32) (hb : (⟨2, ![1, n]⟩ : Shape).Broadcasts ⟨2, ![m, n]⟩) (r : Fin m) (q : Fin n) :
    addf (matmul (DotDims.plain m k n) none A B (constant ⟨2, ![m, n]⟩ .f32 0x00000000#32))
        (broadcastTo ⟨2, ![m, n]⟩ bias hb) (ix2 r q)
      = ∑ c : Fin k, A (ix2 r c) * B (ix2 c q) + bias (ix2 (0 : Fin 1) q) :=
  congrArg₂ (· + ·) (Cert.LibPlainProduct.matmul_plain_zero_apply none A B r q) (broadcastTo_1b_ab_apply bias hb r q)

/-- A dense layer followed by the maximum with zero, read at an entry. -/
theorem relu_layer_apply {m k n : Nat} (A : FVec Ideal ⟨2, ![m, k]⟩ .f32) (B : FVec Ideal ⟨2, ![k, n]⟩ .f32)
    (bias : FVec Ideal ⟨2, ![1, n]⟩ .f32) (hb : (⟨2, ![1, n]⟩ : Shape).Broadcasts ⟨2, ![m, n]⟩) (r : Fin m) (q : Fin n) :
    maximumf (addf (matmul (DotDims.plain m k n) none A B (constant ⟨2, ![m, n]⟩ .f32 0x00000000#32))
        (broadcastTo ⟨2, ![m, n]⟩ bias hb)) (broadcast ⟨2, ![m, n]⟩ (Scalar.ofBits .f32 0x00000000#32 : Ideal .f32)) (ix2 r q)
      = max (∑ c : Fin k, A (ix2 r c) * B (ix2 c q) + bias (ix2 (0 : Fin 1) q)) 0 :=
  congrArg₂ max (layer_apply A B bias hb r q) zero_word

section Half
variable (v3 : FVec Ideal S4096x128 .f32) (v4 : FVec Ideal S128x256 .f32) (v6 : FVec Ideal S1x256 .f32) (v12 : FVec Ideal S256x256 .f32)
  (v14 : FVec Ideal S1x256 .f32) (v20 : FVec Ideal S256x256 .f32) (v22 : FVec Ideal S1x256 .f32)
  (w1 : Fin 64 → Fin 256 → EReal) (b1 : Fin 256 → EReal) (w2 : Fin 256 → Fin 256 → EReal) (b2 : Fin 256 → EReal)
  (w3 : Fin 256 → Fin 128 → EReal) (b3 : Fin 128 → EReal)

/-- The first layer at row `r`: the 64 zero rows under w1 drop the row's second half from the sum. -/
theorem layer1_apply (hv4 : ∀ (c : Fin 128) (k : Fin 256), v4 (ix2 c k) = w1p w1 c k) (hv6 : ∀ k : Fin 256, v6 (ix2 (0 : Fin 1) k) = b1 k)
    (hb : S1x256.Broadcasts S4096x256) (r : Fin 4096) (k : Fin 256) :
    maximumf (addf (matmul (DotDims.plain 4096 128 256) none v3 v4 (constant S4096x256 .f32 0x00000000#32))
        (broadcastTo S4096x256 v6 hb)) (broadcast S4096x256 (Scalar.ofBits .f32 0x00000000#32 : Ideal .f32)) (ix2 r k)
      = hid1 w1 b1 (fun l => v3 (ix2 r l)) k := by
  refine (relu_layer_apply v3 v4 v6 hb r k).trans ?_
  unfold hid1
  refine congrArg₂ max (congrArg₂ (· + ·) ?_ (hv6 k)) rfl
  refine Eq.trans (Finset.sum_congr rfl fun c _ => congrArg (v3 (ix2 r c) * ·) (hv4 c k)) ?_
  exact sum_w1p (fun l => v3 (ix2 r l)) w1 k

/-- The second layer at row `r`, over any first-layer block that reads `hid1` on that row. -/
theorem layer2_apply (H1 : FVec Ideal S4096x256 .f32) (xr : Fin 128 → EReal) (r : Fin 4096)
    (hH1 : ∀ j : Fin 256, H1 (ix2 r j) = hid1 w1 b1 xr j)
    (hv12 : ∀ j k : Fin 256, v12 (ix2 j k) = w2 j k) (hv14 : ∀ k : Fin 256, v14 (ix2 (0 : Fin 1) k) = b2 k)
    (hb : S1x256.Broadcasts S4096x256) (k : Fin 256) :
    maximumf (addf (matmul (DotDims.plain 4096 256 256) none H1 v12 (constant S4096x256 .f32 0x00000000#32))
        (broadcastTo S4096x256 v14 hb)) (broadcast S4096x256 (Scalar.ofBits .f32 0x00000000#32 : Ideal .f32)) (ix2 r k)
      = hid2 w1 b1 w2 b2 xr k := by
  refine (relu_layer_apply H1 v12 v14 hb r k).trans ?_
  unfold hid2
  refine congrArg₂ max (congrArg₂ (· + ·) ?_ (hv14 k)) rfl
  exact Finset.sum_congr rfl fun j _ => congrArg₂ (· * ·) (hH1 j) (hv12 j k)

/-- The packed third layer at row `r`, over any second-layer block that reads `hid2` on that row. -/
theorem layer3_apply (H2 : FVec Ideal S4096x256 .f32) (xr : Fin 128 → EReal) (r : Fin 4096)
    (hH2 : ∀ j : Fin 256, H2 (ix2 r j) = hid2 w1 b1 w2 b2 xr j)
    (hv20 : ∀ k q : Fin 256, v20 (ix2 k q) = w3p w3 k q) (hv22 : ∀ q : Fin 256, v22 (ix2 (0 : Fin 1) q) = bp b3 q)
    (hb : S1x256.Broadcasts S4096x256) (q : Fin 256) :
    addf (matmul (DotDims.plain 4096 256 256) none H2 v20 (constant S4096x256 .f32 0x00000000#32))
        (broadcastTo S4096x256 v22 hb) (ix2 r q)
      = ∑ k : Fin 256, hid2 w1 b1 w2 b2 xr k * w3p w3 k q + bp b3 q := by
  refine (layer_apply H2 v20 v22 hb r q).trans ?_
  refine congrArg₂ (· + ·) ?_ (hv22 q)
  exact Finset.sum_congr rfl fun j _ => congrArg₂ (· * ·) (hH2 j) (hv20 j q)

/-- The 256-column block of one half at row `r`, column `q`: the packed third layer of the row's conditioner. -/
theorem pay4_apply (hv4 : ∀ (c : Fin 128) (k : Fin 256), v4 (ix2 c k) = w1p w1 c k) (hv6 : ∀ k : Fin 256, v6 (ix2 (0 : Fin 1) k) = b1 k)
    (hv12 : ∀ j k : Fin 256, v12 (ix2 j k) = w2 j k) (hv14 : ∀ k : Fin 256, v14 (ix2 (0 : Fin 1) k) = b2 k)
    (hv20 : ∀ k q : Fin 256, v20 (ix2 k q) = w3p w3 k q) (hv22 : ∀ q : Fin 256, v22 (ix2 (0 : Fin 1) q) = bp b3 q)
    (r : Fin 4096) (q : Fin 256) :
    k0_pay4 (F := Ideal) v3 v4 v6 v12 v14 v20 v22 (ix2 r q)
      = ∑ k : Fin 256, hid2 w1 b1 w2 b2 (fun l => v3 (ix2 r l)) k * w3p w3 k q + bp b3 q := by
  unfold k0_pay4
  rw [shapeCast_self, shapeCast_self]
  exact layer3_apply v20 v22 w1 b1 w2 b2 w3 b3 _ (fun l => v3 (ix2 r l)) r
    (fun j => layer2_apply v12 v14 w1 b1 w2 b2 _ (fun l => v3 (ix2 r l)) r
      (fun j' => layer1_apply v3 v4 v6 w1 b1 hv4 hv6 _ r j') hv12 hv14 _ j)
    hv20 hv22 _ q

end Half

/-! ## The packed columns, the transformed row and the log-determinant -/

/-- The exponential of zero is one. -/
theorem exp_zero_eq : Ideal.exp (0 : EReal) = 1 := by
  have h : Ideal.exp ((0 : ℝ) : EReal) = ((Real.exp 0 : ℝ) : EReal) := Ideal.exp_coe 0
  rw [Real.exp_zero] at h
  exact_mod_cast h

/-- A packed column of the third layer is zero, a log-scale, zero, or a shift, by the quarter it lies in. -/
theorem packed_col (h : Fin 256 → EReal) (w3 : Fin 256 → Fin 128 → EReal) (b3 : Fin 128 → EReal) (q : Fin 256) :
    ∑ k : Fin 256, h k * w3p w3 k q + bp b3 q
      = if q.val < 64 then 0
        else if h1 : q.val < 128 then ∑ k : Fin 256, h k * w3 k ⟨q.val - 64, by omega⟩ + b3 ⟨q.val - 64, by omega⟩
        else if q.val < 192 then 0
        else ∑ k : Fin 256, h k * w3 k ⟨q.val - 128, by have := q.isLt; omega⟩ + b3 ⟨q.val - 128, by have := q.isLt; omega⟩ := by
  unfold w3p bp
  by_cases h0 : q.val < 64
  · simp only [if_pos h0, mul_zero, Finset.sum_const_zero, add_zero]
  · by_cases h1 : q.val < 128
    · simp only [if_neg h0, dif_pos h1]
    · by_cases h2 : q.val < 192
      · simp only [if_neg h0, dif_neg h1, if_pos h2, mul_zero, Finset.sum_const_zero, add_zero]
      · simp only [if_neg h0, dif_neg h1, if_neg h2]

/-- The reduced index `R` with lane `k` put back is (R, k). -/
theorem lift_row (h : S4096x128.Reduces [1] S4096) (R : Fin 4096) (k : Fin (S4096x128.size 1)) :
    h.lift (ix1 R) k = ix2 R (⟨k.val, k.isLt⟩ : Fin 128) := by
  funext c; apply Fin.ext
  fin_cases c <;> rfl

/-- A lane sum read at a row: the sum over the 128 lanes. -/
theorem lane_sum_apply (src : FVec Ideal S4096x128 .f32) (h : S4096x128.Reduces [1] S4096) (hφ : FKind.Formats .f32)
    (hacc : (0x00000000#32 : BitVec 32) = 0x00000000#32) (R : Fin 4096) :
    multiReduction .add [1] S4096 src 0x00000000#32 h hφ hacc (ix1 R) = ∑ l : Fin 128, src (ix2 R l) := by
  refine (Ideal.multiReduction_add_single src 0x00000000#32 h hφ hacc (ix1 R)).trans ?_
  show ∑ k : Fin 128, src (h.lift (ix1 R) k) = _
  exact Finset.sum_congr rfl fun k _ => congrArg src (lift_row h R k)

section Half2
variable (v3 : FVec Ideal S4096x128 .f32) (v4 : FVec Ideal S128x256 .f32) (v6 : FVec Ideal S1x256 .f32) (v12 : FVec Ideal S256x256 .f32)
  (v14 : FVec Ideal S1x256 .f32) (v20 : FVec Ideal S256x256 .f32) (v22 : FVec Ideal S1x256 .f32)
  (w1 : Fin 64 → Fin 256 → EReal) (b1 : Fin 256 → EReal) (w2 : Fin 256 → Fin 256 → EReal) (b2 : Fin 256 → EReal)
  (w3 : Fin 256 → Fin 128 → EReal) (b3 : Fin 128 → EReal)
  (hv4 : ∀ (c : Fin 128) (k : Fin 256), v4 (ix2 c k) = w1p w1 c k) (hv6 : ∀ k : Fin 256, v6 (ix2 (0 : Fin 1) k) = b1 k)
  (hv12 : ∀ j k : Fin 256, v12 (ix2 j k) = w2 j k) (hv14 : ∀ k : Fin 256, v14 (ix2 (0 : Fin 1) k) = b2 k)
  (hv20 : ∀ k q : Fin 256, v20 (ix2 k q) = w3p w3 k q) (hv22 : ∀ q : Fin 256, v22 (ix2 (0 : Fin 1) q) = bp b3 q)

include hv4 hv6 hv12 hv14 hv20 hv22

/-- The first 128 columns of the block, lane `l` of row `r`: zero on the first half, the log-scale `l - 64` on the second. -/
theorem pay5_apply (r : Fin 4096) (l : Fin 128) :
    k0_pay5 (F := Ideal) v3 v4 v6 v12 v14 v20 v22 (ix2 r l)
      = if h : l.val < 64 then 0 else par w1 b1 w2 b2 w3 b3 (fun l => v3 (ix2 r l)) ⟨l.val - 64, by omega⟩ := by
  have hl := l.isLt
  unfold k0_pay5
  refine (slice2_axis1_apply 0 _ _ r l (⟨l.val, by omega⟩ : Fin 256) (by show l.val = 0 + l.val; omega)).trans ?_
  refine (pay4_apply v3 v4 v6 v12 v14 v20 v22 w1 b1 w2 b2 w3 b3 hv4 hv6 hv12 hv14 hv20 hv22 r _).trans ?_
  refine (packed_col _ w3 b3 _).trans ?_
  by_cases h : l.val < 64
  · rw [dif_pos h]; exact if_pos h
  · rw [dif_neg h]
    have h1 : l.val < 128 := hl
    exact (if_neg h).trans (dif_pos h1)

/-- The last 128 columns of the block, lane `l` of row `r`: zero on the first half, the shift `l` on the second. -/
theorem shift_apply (hs : S4096x256.Slices ![0, 128] S4096x128) (r : Fin 4096) (l : Fin 128) :
    extractStridedSlice S4096x128 ![0, 128] (k0_pay4 (F := Ideal) v3 v4 v6 v12 v14 v20 v22) hs (ix2 r l)
      = if l.val < 64 then 0 else par w1 b1 w2 b2 w3 b3 (fun l => v3 (ix2 r l)) l := by
  have hl := l.isLt
  refine (slice2_axis1_apply 128 _ hs r l (⟨128 + l.val, by omega⟩ : Fin 256) rfl).trans ?_
  refine (pay4_apply v3 v4 v6 v12 v14 v20 v22 w1 b1 w2 b2 w3 b3 hv4 hv6 hv12 hv14 hv20 hv22 r _).trans ?_
  refine (packed_col _ w3 b3 _).trans ?_
  have n0 : ¬ (128 + l.val < 64) := by omega
  have n1 : ¬ (128 + l.val < 128) := by omega
  refine (if_neg n0).trans ((dif_neg n1).trans ?_)
  by_cases h : l.val < 64
  · rw [if_pos h]; exact if_pos (by show 128 + l.val < 192; omega)
  · rw [if_neg h]
    refine (if_neg (by show ¬ (128 + l.val < 192); omega)).trans ?_
    unfold par
    have e : (⟨128 + l.val - 128, by omega⟩ : Fin 128) = l := Fin.ext (by show 128 + l.val - 128 = l.val; omega)
    exact congrArg (fun m : Fin 128 => ∑ k : Fin 256, hid2 w1 b1 w2 b2 (fun l => v3 (ix2 r l)) k * w3 k m + b3 m) e

/-- the z block of one half (4096 rows): row r, lane l -/
theorem pay6_apply (r : Fin 4096) (l : Fin 128) :
    k0_pay6 (F := Ideal) v3 v4 v6 v12 v14 v20 v22 (ix2 r l) = zrow w1 b1 w2 b2 w3 b3 (fun l => v3 (ix2 r l)) l := by
  unfold k0_pay6
  show v3 (ix2 r l) * Ideal.exp (k0_pay5 (F := Ideal) v3 v4 v6 v12 v14 v20 v22 (ix2 r l))
      + extractStridedSlice S4096x128 ![0, 128] (k0_pay4 (F := Ideal) v3 v4 v6 v12 v14 v20 v22) _ (ix2 r l) = _
  rw [pay5_apply v3 v4 v6 v12 v14 v20 v22 w1 b1 w2 b2 w3 b3 hv4 hv6 hv12 hv14 hv20 hv22 r l,
    shift_apply v3 v4 v6 v12 v14 v20 v22 w1 b1 w2 b2 w3 b3 hv4 hv6 hv12 hv14 hv20 hv22 _ r l]
  unfold zrow
  by_cases h : l.val < 64
  · rw [dif_pos h, if_pos h, dif_pos h, exp_zero_eq, mul_one, add_zero]
  · rw [dif_neg h, if_neg h, dif_neg h]

/-- the log-determinants of one half, laid out 32×128: entry (a, b) is row a·128+b of the half -/
theorem pay7_apply (a : Fin 32) (b : Fin 128) :
    k0_pay7 (F := Ideal) v3 v4 v6 v12 v14 v20 v22 (ix2 a b)
      = ldet w1 b1 w2 b2 w3 b3 (fun l => v3 (ix2 (⟨a.val * 128 + b.val, by omega⟩ : Fin 4096) l)) := by
  unfold k0_pay7
  refine (shapeCast_apply _ _ (ix2 a b) (ix1 (⟨a.val * 128 + b.val, by omega⟩ : Fin 4096)) ?_).trans ?_
  · rw [Shape.rowMajor_val_one, Shape.rowMajor_val_two]
    rfl
  refine (lane_sum_apply _ _ _ _ _).trans ?_
  unfold ldet
  refine Eq.trans (Finset.sum_congr rfl fun l _ =>
    pay5_apply v3 v4 v6 v12 v14 v20 v22 w1 b1 w2 b2 w3 b3 hv4 hv6 hv12 hv14 hv20 hv22 _ l) ?_
  refine (sum_low_zero _ fun l hl => dif_pos hl).trans ?_
  refine Finset.sum_congr rfl fun j _ => ?_
  have hj : ¬ ((hi j).val < 64) := by show ¬ (j.val + 64 < 64); omega
  refine (dif_neg hj).trans (congrArg (par w1 b1 w2 b2 w3 b3 _) (Fin.ext ?_))
  show j.val + 64 - 64 = j.val
  omega

end Half2

/-- the second half's payloads are the first half's, term for term -/
theorem pay10_eq : k0_pay10 (F := Ideal) = k0_pay6 (F := Ideal) := rfl

theorem pay11_eq : k0_pay11 (F := Ideal) = k0_pay7 (F := Ideal) := rfl

end Cert.KernelIdeal.KPay

end
-- ==== Proof.KBlk.lean ====
/-
  The two output blocks of one grid point, read at one index.

  The block of transformed rows is the overlay of two stores, one per half of 4096 rows, each the transformed rows of
  its half of the input block; so row `R` of the block is the transformed row `R` of the input block. The block of
  log-determinants is the overlay of two 32×128 stores; its entry (a, b) is the log-determinant of row a·128 + b.
-/
import proofs.«134817_g2000709431655183_pallaspilot1_68_15_alg».proof.Proof.KPieces
import proofs.«134817_g2000709431655183_pallaspilot1_68_15_alg».proof.Proof.KPayload
import proofs.«134817_g2000709431655183_pallaspilot1_68_15_alg».proof.Proof.Spec
import Idealize.ShloMosaic.Lib.Pipeline.Value

noncomputable section

namespace Cert.KernelIdeal.KBlk

open Idealize.ShloMosaic Idealize.ShloMosaic.ValueIdx Idealize.ShloMosaic.Tactic
open Cert.KernelIdeal Cert.KernelIdeal.Gen Cert.KernelIdeal.KPieces Cert.KernelIdeal.KPay Cert.Coupling

local notation "ldv" => View.ld (Val := Elt Ideal) (e' := EltTy.f32)

/-! ## Where each rectangle puts its own indices -/

/-- The first half of the rows sits at the same row. -/
theorem R0_emb (r : Fin 4096) (l : Fin 128) : R0.emb (ix2 r l) = ix2 (⟨r.val, by omega⟩ : Fin 8192) l := by
  funext a; apply Fin.ext
  match a with
  | ⟨0, _⟩ => show 0 + 1 * r.val = r.val; omega
  | ⟨1, _⟩ => show 0 + 1 * l.val = l.val; omega

/-- The second half of the rows sits 4096 rows down. -/
theorem R1_emb (r : Fin 4096) (l : Fin 128) : R1.emb (ix2 r l) = ix2 (⟨4096 + r.val, by omega⟩ : Fin 8192) l := by
  funext a; apply Fin.ext
  match a with
  | ⟨0, _⟩ => show 4096 + 1 * r.val = 4096 + r.val; omega
  | ⟨1, _⟩ => show 0 + 1 * l.val = l.val; omega

/-- The first 32 rows of the log-determinant block sit at the same row. -/
theorem Q0_emb (a : Fin 32) (b : Fin 128) : Q0.emb (ix2 a b) = ix2 (⟨a.val, by omega⟩ : Fin 64) b := by
  funext c; apply Fin.ext
  match c with
  | ⟨0, _⟩ => show 0 + 1 * a.val = a.val; omega
  | ⟨1, _⟩ => show 0 + 1 * b.val = b.val; omega

/-- The last 32 rows of the log-determinant block sit 32 rows down. -/
theorem Q1_emb (a : Fin 32) (b : Fin 128) : Q1.emb (ix2 a b) = ix2 (⟨32 + a.val, by omega⟩ : Fin 64) b := by
  funext c; apply Fin.ext
  match c with
  | ⟨0, _⟩ => show 32 + 1 * a.val = 32 + a.val; omega
  | ⟨1, _⟩ => show 0 + 1 * b.val = b.val; omega

/-- The first row of the packed bias sits at row 0. -/
theorem Rrow_emb (q : Fin 256) : Rrow.emb (ix2 (0 : Fin 1) q) = ix2 (0 : Fin 8) q := by
  funext c; apply Fin.ext
  match c with
  | ⟨0, _⟩ => rfl
  | ⟨1, _⟩ => show 0 + 1 * q.val = q.val; omega

section Blocks
variable (x0 : FVec Ideal S8192x128 .f32) (x2 : FVec Ideal S1x256 .f32) (x3 : FVec Ideal S256x256 .f32) (x4 : FVec Ideal S1x256 .f32)
  (s0 : FVec Ideal S128x256 .f32) (s1 : FVec Ideal S256x256 .f32) (s2 : FVec Ideal S8x256 .f32)
  (w1 : Fin 64 → Fin 256 → EReal) (b1 : Fin 256 → EReal) (w2 : Fin 256 → Fin 256 → EReal) (b2 : Fin 256 → EReal)
  (w3 : Fin 256 → Fin 128 → EReal) (b3 : Fin 128 → EReal)

/-- The block of transformed rows as one function of the block index. -/
def G7 : FVec Ideal S8192x128 .f32 := fun y =>
  zrow w1 b1 w2 b2 w3 b3 (fun l => x0 (ix2 (⟨(y 0).val, idx2_lt0 y⟩ : Fin 8192) l)) (⟨(y 1).val, idx2_lt1 y⟩ : Fin 128)

/-- The block of log-determinants as one function of the block index. -/
def G8 : FVec Ideal S64x128 .f32 := fun y =>
  ldet w1 b1 w2 b2 w3 b3 (fun l => x0 (ix2 (⟨(y 0).val * 128 + (y 1).val, by
    have h0 := idx2_lt0 y; have h1 := idx2_lt1 y; omega⟩ : Fin 8192) l))

variable (hs0 : ∀ (c : Fin 128) (k : Fin 256), s0 (ix2 c k) = w1p w1 c k) (hx2 : ∀ k : Fin 256, x2 (ix2 (0 : Fin 1) k) = b1 k)
  (hx3 : ∀ j k : Fin 256, x3 (ix2 j k) = w2 j k) (hx4 : ∀ k : Fin 256, x4 (ix2 (0 : Fin 1) k) = b2 k)
  (hs1 : ∀ k q : Fin 256, s1 (ix2 k q) = w3p w3 k q) (hs2 : ∀ q : Fin 256, s2 (ix2 (0 : Fin 8) q) = bp b3 q)

include hs2 in
/-- The loaded first row of the packed bias is the packed bias. -/
theorem row_read (q : Fin 256) : (ldv s2 Rrow) (ix2 (0 : Fin 1) q) = bp b3 q :=
  (congrArg s2 (Rrow_emb q)).trans (hs2 q)

include hs0 hx2 hx3 hx4 hs1 hs2

/-- The first half's store is the first half of the block of transformed rows. -/
theorem piece7_0 (r : Fin 4096) (l : Fin 128) :
    k0_pay6 (F := Ideal) (ldv x0 R0) s0 x2 x3 x4 s1 (ldv s2 Rrow) (ix2 r l)
      = G7 x0 w1 b1 w2 b2 w3 b3 (R0.emb (ix2 r l)) := by
  refine (pay6_apply (ldv x0 R0) s0 x2 x3 x4 s1 (ldv s2 Rrow) w1 b1 w2 b2 w3 b3 hs0 hx2 hx3 hx4 hs1
    (row_read s2 b3 hs2) r l).trans ?_
  refine Eq.trans ?_ (congrArg (G7 x0 w1 b1 w2 b2 w3 b3) (R0_emb r l)).symm
  exact congrArg (fun f : Fin 128 → EReal => zrow w1 b1 w2 b2 w3 b3 f l) (funext fun l' => congrArg x0 (R0_emb r l'))

/-- The second half's store is the second half of the block of transformed rows. -/
theorem piece7_1 (r : Fin 4096) (l : Fin 128) :
    k0_pay10 (F := Ideal) (ldv x0 R1) s0 x2 x3 x4 s1 (ldv s2 Rrow) (ix2 r l)
      = G7 x0 w1 b1 w2 b2 w3 b3 (R1.emb (ix2 r l)) := by
  rw [pay10_eq]
  refine (pay6_apply (ldv x0 R1) s0 x2 x3 x4 s1 (ldv s2 Rrow) w1 b1 w2 b2 w3 b3 hs0 hx2 hx3 hx4 hs1
    (row_read s2 b3 hs2) r l).trans ?_
  refine Eq.trans ?_ (congrArg (G7 x0 w1 b1 w2 b2 w3 b3) (R1_emb r l)).symm
  exact congrArg (fun f : Fin 128 → EReal => zrow w1 b1 w2 b2 w3 b3 f l) (funext fun l' => congrArg x0 (R1_emb r l'))

/-- The first half's log-determinants are the first 32 rows of the block of log-determinants. -/
theorem piece8_0 (a : Fin 32) (b : Fin 128) :
    k0_pay7 (F := Ideal) (ldv x0 R0) s0 x2 x3 x4 s1 (ldv s2 Rrow) (ix2 a b)
      = G8 x0 w1 b1 w2 b2 w3 b3 (Q0.emb (ix2 a b)) := by
  refine (pay7_apply (ldv x0 R0) s0 x2 x3 x4 s1 (ldv s2 Rrow) w1 b1 w2 b2 w3 b3 hs0 hx2 hx3 hx4 hs1
    (row_read s2 b3 hs2) a b).trans ?_
  refine Eq.trans ?_ (congrArg (G8 x0 w1 b1 w2 b2 w3 b3) (Q0_emb a b)).symm
  exact congrArg (fun f : Fin 128 → EReal => ldet w1 b1 w2 b2 w3 b3 f) (funext fun l' => congrArg x0 (R0_emb (⟨a.val * 128 + b.val, by omega⟩ : Fin 4096) l'))

/-- The second half's log-determinants are the last 32 rows: row 4096 + a·128 + b is row (32 + a)·128 + b. -/
theorem piece8_1 (a : Fin 32) (b : Fin 128) :
    k0_pay11 (F := Ideal) (ldv x0 R1) s0 x2 x3 x4 s1 (ldv s2 Rrow) (ix2 a b)
      = G8 x0 w1 b1 w2 b2 w3 b3 (Q1.emb (ix2 a b)) := by
  rw [pay11_eq]
  refine (pay7_apply (ldv x0 R1) s0 x2 x3 x4 s1 (ldv s2 Rrow) w1 b1 w2 b2 w3 b3 hs0 hx2 hx3 hx4 hs1
    (row_read s2 b3 hs2) a b).trans ?_
  refine Eq.trans ?_ (congrArg (G8 x0 w1 b1 w2 b2 w3 b3) (Q1_emb a b)).symm
  refine congrArg (fun f : Fin 128 → EReal => ldet w1 b1 w2 b2 w3 b3 f) (funext fun l' => ?_)
  refine (congrArg x0 (R1_emb (⟨a.val * 128 + b.val, by omega⟩ : Fin 4096) l')).trans (congrArg (fun Rw : Fin 8192 => x0 (ix2 Rw l')) (Fin.ext ?_))
  show 4096 + (a.val * 128 + b.val) = (32 + a.val) * 128 + b.val
  omega

/-- the block of transformed rows: row R, lane l -/
theorem blk7_apply (R : Fin 8192) (l : Fin 128) :
    blk7 (F := Ideal) x0 x2 x3 x4 s0 s1 s2 (ix2 R l) = zrow w1 b1 w2 b2 w3 b3 (fun l => x0 (ix2 R l)) l := by
  unfold blk7
  refine (View.canon_apply_of_pieces (G7 x0 w1 b1 w2 b2 w3 b3) _ (fun p hp x => ?_) (ix2 R l)
    (View.cover_of_tiledL (s := S8192x128) _ S4096x128.size (by sl_kernel_rfl) (ix2 R l))).trans rfl
  rcases List.mem_cons.mp hp with rfl | hp
  · obtain ⟨r, l', rfl⟩ : ∃ (r : Fin 4096) (l' : Fin 128), x = ix2 r l' := ⟨x 0, x 1, eq_ix2 x⟩
    exact piece7_1 x0 x2 x3 x4 s0 s1 s2 w1 b1 w2 b2 w3 b3 hs0 hx2 hx3 hx4 hs1 hs2 r l'
  · obtain rfl := List.mem_singleton.mp hp
    obtain ⟨r, l', rfl⟩ : ∃ (r : Fin 4096) (l' : Fin 128), x = ix2 r l' := ⟨x 0, x 1, eq_ix2 x⟩
    exact piece7_0 x0 x2 x3 x4 s0 s1 s2 w1 b1 w2 b2 w3 b3 hs0 hx2 hx3 hx4 hs1 hs2 r l'

/-- the block of log-determinants: entry (a, b) is row a·128+b of the block -/
theorem blk8_apply (a : Fin 64) (b : Fin 128) :
    blk8 (F := Ideal) x0 x2 x3 x4 s0 s1 s2 (ix2 a b)
      = ldet w1 b1 w2 b2 w3 b3 (fun l => x0 (ix2 (⟨a.val * 128 + b.val, by omega⟩ : Fin 8192) l)) := by
  unfold blk8
  refine (View.canon_apply_of_pieces (G8 x0 w1 b1 w2 b2 w3 b3) _ (fun p hp x => ?_) (ix2 a b)
    (View.cover_of_tiledL (s := S64x128) _ S32x128.size (by sl_kernel_rfl) (ix2 a b))).trans rfl
  rcases List.mem_cons.mp hp with rfl | hp
  · obtain ⟨a', b', rfl⟩ : ∃ (a' : Fin 32) (b' : Fin 128), x = ix2 a' b' := ⟨x 0, x 1, eq_ix2 x⟩
    exact piece8_1 x0 x2 x3 x4 s0 s1 s2 w1 b1 w2 b2 w3 b3 hs0 hx2 hx3 hx4 hs1 hs2 a' b'
  · obtain rfl := List.mem_singleton.mp hp
    obtain ⟨a', b', rfl⟩ : ∃ (a' : Fin 32) (b' : Fin 128), x = ix2 a' b' := ⟨x 0, x 1, eq_ix2 x⟩
    exact piece8_0 x0 x2 x3 x4 s0 s1 s2 w1 b1 w2 b2 w3 b3 hs0 hx2 hx3 hx4 hs1 hs2 a' b'

end Blocks

end Cert.KernelIdeal.KBlk

end
-- ==== Proof.KFlush.lean ====
/-
  From the blocks to the arrays. After grid point `t` the output block `z` holds, at row `R` and lane `l`, the coupling
  transform of row `t·8192 + R` of the input; the log-determinant block holds, at `(a, b)`, the log-determinant of row
  `(t·64 + a)·128 + b`. Each point writes its blocks back, the blocks tile the two arrays, so after the run the arrays
  hold the transform of every row.
-/
import proofs.«134817_g2000709431655183_pallaspilot1_68_15_alg».proof.Proof.KScratch
import proofs.«134817_g2000709431655183_pallaspilot1_68_15_alg».proof.Proof.KCover
import proofs.«134817_g2000709431655183_pallaspilot1_68_15_alg».proof.Proof.KIn
import proofs.«134817_g2000709431655183_pallaspilot1_68_15_alg».proof.Proof.KBlk
import proofs.«134817_g2000709431655183_pallaspilot1_68_15_alg».proof.Proof.KPayload
import proofs.«134817_g2000709431655183_pallaspilot1_68_15_alg».proof.Proof.Spec

set_option maxRecDepth 16384

noncomputable section

namespace Cert.KernelIdeal.KFlush

open Idealize.ShloMosaic Idealize.ShloMosaic.TcCoe Idealize.ShloMosaic.ValueIdx
open Idealize.SL Idealize.SL.Sem
open Cert.KernelIdeal Cert.KernelIdeal.Gen Cert.KernelIdeal.KPieces Cert.KernelIdeal.KScratch Cert.KernelIdeal.KCover
open Cert.KernelIdeal.KPay Cert.KernelIdeal.KIn Cert.KernelIdeal.KBlk Cert.Coupling

variable (m : (ℓ : Loc nD τ sig) → Buf (Elt Ideal) ℓ)

/-- The weights of core `c`'s arguments, as curried functions. -/
def W1 (c : Dev nD) : Fin 64 → Fin 256 → EReal := fun a k => (m ((c.tc : Thread nD τ).loc main_arg1)) (ix2 a k)
def B1 (c : Dev nD) : Fin 256 → EReal := fun k => (m ((c.tc : Thread nD τ).loc main_arg2)) (ix1 k)
def W2 (c : Dev nD) : Fin 256 → Fin 256 → EReal := fun j k => (m ((c.tc : Thread nD τ).loc main_arg3)) (ix2 j k)
def B2 (c : Dev nD) : Fin 256 → EReal := fun k => (m ((c.tc : Thread nD τ).loc main_arg4)) (ix1 k)
def W3 (c : Dev nD) : Fin 256 → Fin 128 → EReal := fun k l => (m ((c.tc : Thread nD τ).loc main_arg5)) (ix2 k l)
def B3 (c : Dev nD) : Fin 128 → EReal := fun l => (m ((c.tc : Thread nD τ).loc main_arg6)) (ix1 l)

/-- The first scratch buffer: the first-layer weights over 64 zero rows. -/
theorem S0_apply (c : Dev nD) (a : Fin 128) (k : Fin 256) : S0 m c (ix2 a k) = w1p (W1 m c) a k := by
  unfold S0 sc0
  refine (pay1_apply _ a k).trans ?_
  exact congrArg (fun f => w1p f a k) (funext fun a' => funext fun k' => X1_apply m c t0 a' k')

/-- The second scratch buffer: the third-layer weights packed into 256 columns. -/
theorem S1_apply (c : Dev nD) (k q : Fin 256) : S1 m c (ix2 k q) = w3p (W3 m c) k q := by
  unfold S1 sc1
  refine pay2_apply _ _ (W3 m c) (fun k' j => ?_) (fun k' j => ?_) k q
  · show X5 m c t0 (C0.emb (ix2 k' j)) = _
    rw [show C0.emb (ix2 k' j) = ix2 k' (lo j) from funext fun a => Fin.ext (by
      match a with
      | ⟨0, _⟩ => show 0 + 1 * k'.val = k'.val; omega
      | ⟨1, _⟩ => show 0 + 1 * j.val = j.val; omega)]
    exact X5_apply m c t0 k' (lo j)
  · show X5 m c t0 (C1.emb (ix2 k' j)) = _
    rw [show C1.emb (ix2 k' j) = ix2 k' (hi j) from funext fun a => Fin.ext (by
      match a with
      | ⟨0, _⟩ => show 0 + 1 * k'.val = k'.val; omega
      | ⟨1, _⟩ => show 64 + 1 * j.val = j.val + 64; omega)]
    exact X5_apply m c t0 k' (hi j)

/-- The third scratch buffer: the packed third-layer bias in each of its 8 rows. -/
theorem S2_apply (c : Dev nD) (a : Fin 8) (q : Fin 256) : S2 m c (ix2 a q) = bp (B3 m c) q := by
  unfold S2 sc2
  refine pay3_apply _ _ (B3 m c) (fun j => ?_) (fun j => ?_) a q
  · show X6 m c t0 (D0.emb (ix2 (0 : Fin 1) j)) = _
    rw [show D0.emb (ix2 (0 : Fin 1) j) = ix2 (0 : Fin 1) (lo j) from funext fun x => Fin.ext (by
      match x with
      | ⟨0, _⟩ => show 0 + 1 * 0 = 0; omega
      | ⟨1, _⟩ => show 0 + 1 * j.val = j.val; omega)]
    exact X6_apply m c t0 (lo j)
  · show X6 m c t0 (D1.emb (ix2 (0 : Fin 1) j)) = _
    rw [show D1.emb (ix2 (0 : Fin 1) j) = ix2 (0 : Fin 1) (hi j) from funext fun x => Fin.ext (by
      match x with
      | ⟨0, _⟩ => show 0 + 1 * 0 = 0; omega
      | ⟨1, _⟩ => show 64 + 1 * j.val = j.val + 64; omega)]
    exact X6_apply m c t0 (hi j)

/-- The log-determinants as the kernel lays them out: a 512×128 array whose entry `(a, b)` is row `a·128 + b`. -/
def LD2 (c : Dev nD) : S512x128.Idx → EReal := fun i =>
  ldet (W1 m c) (B1 m c) (W2 m c) (B2 m c) (W3 m c) (B3 m c)
    (rowOf (m ((c.tc : Thread nD τ).loc main_arg0)) (⟨(i 0).val * 128 + (i 1).val, by have := idx2_lt0 i; have := idx2_lt1 i; omega⟩ : Fin 65536))

/-- The output block `z` after point `t`, at row `R` and lane `l`: the transform of input row `t·8192 + R`. -/
theorem closed7_apply (c : Dev nD) (t : Fin cfg0.N) (R : Fin 8192) (l : Fin 128) (R' : Fin 65536) (hR' : R'.val = t.val * 8192 + R.val) :
    blk7 (F := Ideal) (X0 m c t) (X2 m c t) (X3 m c t) (X4 m c t) (S0 m c) (S1 m c) (S2 m c) (ix2 R l) = Zarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 R' l) := by
  refine (blk7_apply (X0 m c t) (X2 m c t) (X3 m c t) (X4 m c t) (S0 m c) (S1 m c) (S2 m c)
    (W1 m c) (B1 m c) (W2 m c) (B2 m c) (W3 m c) (B3 m c) (S0_apply m c) (X2_apply m c t) (X3_apply m c t) (X4_apply m c t)
    (S1_apply m c) (S2_apply m c 0) R l).trans ?_
  show _ = zrow (W1 m c) (B1 m c) (W2 m c) (B2 m c) (W3 m c) (B3 m c) (rowOf (m ((c.tc : Thread nD τ).loc main_arg0)) R') l
  refine congrArg (fun xr => zrow (W1 m c) (B1 m c) (W2 m c) (B2 m c) (W3 m c) (B3 m c) xr l) (funext fun l' => ?_)
  have hR : R' = ⟨t.val * 8192 + R.val, by have := t.isLt; have hN : cfg0.N = 8 := N_0; have := R.isLt; omega⟩ := Fin.ext hR'
  rw [hR]
  exact X0_apply m c t R l'

/-- The log-determinant block after point `t`, at `(a, b)`. -/
theorem closed8_apply (c : Dev nD) (t : Fin cfg0.N) (a : Fin 64) (b : Fin 128) (a' : Fin 512) (ha' : a'.val = t.val * 64 + a.val) :
    blk8 (F := Ideal) (X0 m c t) (X2 m c t) (X3 m c t) (X4 m c t) (S0 m c) (S1 m c) (S2 m c) (ix2 a b) = LD2 m c (ix2 a' b) := by
  refine (blk8_apply (X0 m c t) (X2 m c t) (X3 m c t) (X4 m c t) (S0 m c) (S1 m c) (S2 m c)
    (W1 m c) (B1 m c) (W2 m c) (B2 m c) (W3 m c) (B3 m c) (S0_apply m c) (X2_apply m c t) (X3_apply m c t) (X4_apply m c t)
    (S1_apply m c) (S2_apply m c 0) a b).trans ?_
  unfold LD2
  refine congrArg (fun xr => ldet (W1 m c) (B1 m c) (W2 m c) (B2 m c) (W3 m c) (B3 m c) xr) (funext fun l' => ?_)
  have hN : cfg0.N = 8 := N_0
  have e := X0_apply m c t (⟨a.val * 128 + b.val, by omega⟩ : Fin 8192) l'
  refine e.trans ?_
  show _ = (m ((c.tc : Thread nD τ).loc main_arg0)) (ix2 _ l')
  refine congrArg (fun r => (m ((c.tc : Thread nD τ).loc main_arg0)) (ix2 r l')) (Fin.ext ?_)
  show t.val * 8192 + (a.val * 128 + b.val) = a'.val * 128 + b.val
  rw [ha']; omega

/-- What point `t` writes back into `z` is block `t` of the transformed array. -/
theorem flushed_eq7 (c : Dev nD) (t : Fin cfg0.N) :
    (dats m 0 c).flushed 7 t = ((cfg0.win 7).blk t).view.read (Elt Ideal) (Zarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show (cfg0.win 7).cut (grid0.coords t) ((dats m 0 c).after 7 t) = _
  rw [after0_7, outsAt_eq]
  unfold closed
  dsimp only
  funext j
  have hN : cfg0.N = 8 := N_0
  obtain ⟨R, l, rfl⟩ : ∃ (R : Fin 8192) (l : Fin 128), j = ix2 R l := ⟨j 0, j 1, eq_ix2 j⟩
  show blk7 (F := Ideal) (X0 m c t) (X2 m c t) (X3 m c t) (X4 m c t) (S0 m c) (S1 m c) (S2 m c) (ix2 R l) = Zarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 7).blk t).view.emb (ix2 R l))
  rw [emb7 t R l ⟨t.val * 8192 + R.val, by have := t.isLt; have := R.isLt; omega⟩ rfl]
  exact closed7_apply m c t R l _ rfl

/-- What point `t` writes back into the log-determinant array is block `t` of `LD2`. -/
theorem flushed_eq8 (c : Dev nD) (t : Fin cfg0.N) :
    (dats m 0 c).flushed 8 t = ((cfg0.win 8).blk t).view.read (Elt Ideal) (LD2 m c) := by
  show (cfg0.win 8).cut (grid0.coords t) ((dats m 0 c).after 8 t) = _
  rw [after0_8, outsAt_eq]
  unfold closed
  dsimp only
  funext j
  have hN : cfg0.N = 8 := N_0
  obtain ⟨a, b, rfl⟩ : ∃ (a : Fin 64) (b : Fin 128), j = ix2 a b := ⟨j 0, j 1, eq_ix2 j⟩
  show blk8 (F := Ideal) (X0 m c t) (X2 m c t) (X3 m c t) (X4 m c t) (S0 m c) (S1 m c) (S2 m c) (ix2 a b) = LD2 m c (((cfg0.win 8).blk t).view.emb (ix2 a b))
  rw [emb8 t a b ⟨t.val * 64 + a.val, by have := t.isLt; have := a.isLt; omega⟩ rfl]
  exact closed8_apply m c t a b _ rfl

/-- After the run the array `z` is the transformed array. -/
theorem final7 (c : Dev nD) : (dats m 0 c).arrAt 7 cfg0.N = Zarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (dats m 0 c).arrAt_eq_of_cover 7 (Zarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (fun t _ => flushed_eq7 m c t) cover7

/-- After the run the 512×128 log-determinant array is `LD2`. -/
theorem final8 (c : Dev nD) : (dats m 0 c).arrAt 8 cfg0.N = LD2 m c :=
  (dats m 0 c).arrAt_eq_of_cover 8 (LD2 m c) (fun t _ => flushed_eq8 m c t) cover8

end Cert.KernelIdeal.KFlush

end
-- ==== Proof.KRun.lean ====
/-
  The kernel program's run, read: its first result is the transformed array; its second result — the 512×128
  log-determinant array flattened row-major by the host — is the vector of the rows' log-determinants; the arguments end
  unchanged.
-/
import proofs.«134817_g2000709431655183_pallaspilot1_68_15_alg».proof.Proof.KFlush
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.KFlush Cert.Coupling

variable (m : (ℓ : Loc nD τ sig) → Buf (Elt Ideal) ℓ) (ρ : Dev nD → PrngReg)

/-- The host's last operation flattens the log-determinant array as the region left it. -/
theorem tail_eq (c : Dev nD) : Pipeline.afterTail₀ cfgs (dats m) 0 (V0 m) [hostOps1] c main_v4
    = shapeCast S65536 ((dats m 0 c).arrAt 8 cfg0.N) shapeCasts_S512x128_S65536 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3_1) = (dats m 0 c).arrAt 8 cfg0.N :=
    Pipeline.withArrays_arr spec0 launch0.win.arr_inj c _ _ 8
  rw [e]
  rfl

/-- Flattened row-major, entry `(a, b)` of the 512×128 array is entry `a·128 + b` of the vector: the rows' log-determinants in order. -/
theorem ld_eq (c : Dev nD) : shapeCast S65536 (LD2 m c) shapeCasts_S512x128_S65536 = LDarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨R, rfl⟩ : ∃ R : Fin 65536, i = ix1 R := ⟨i 0, eq_ix1 i⟩
  have hR : R.val < 65536 := R.isLt
  rw [shapeCast_apply (LD2 m c) shapeCasts_S512x128_S65536 (ix1 R) (ix2 (⟨R.val / 128, by omega⟩ : Fin 512) (⟨R.val % 128, Nat.mod_lt _ (by decide)⟩ : Fin 128)) (by
    rw [Shape.rowMajor_val_two, Shape.rowMajor_val_one]
    show R.val / 128 * 128 + R.val % 128 = R.val
    omega)]
  show ldet (W1 m c) (B1 m c) (W2 m c) (B2 m c) (W3 m c) (B3 m c) (rowOf (m ((c.tc : Thread nD τ).loc main_arg0)) _) = ldet (W1 m c) (B1 m c) (W2 m c) (B2 m c) (W3 m c) (B3 m c) (rowOf (m ((c.tc : Thread nD τ).loc main_arg0)) R)
  refine congrArg (fun r => ldet (W1 m c) (B1 m c) (W2 m c) (B2 m c) (W3 m c) (B3 m c) (rowOf (m ((c.tc : Thread nD τ).loc main_arg0)) r)) (Fin.ext ?_)
  show R.val / 128 * 128 + R.val % 128 = R.val
  omega

/-- Every weakly fair run of the kernel program ends with its two results at the specification's arrays and its
    arguments unchanged. -/
theorem run : θ_run (defs (F := Ideal)) (onTc (τ := τ) (main (F := Ideal))) ⟨m, fun _ => 0, ρ⟩ (fun r => ∀ c : Dev nD,
      r.2.mem ((c.tc : Thread nD τ).loc main_v3_0) = Zarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v4) = LDarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c),
      ((h c).2 main_v4 (Pipeline.mem_restRefs_of main_v4 (by decide) (by decide))).trans
        ((tail_eq m c).trans ((congrArg (fun A => shapeCast S65536 A shapeCasts_S512x128_S65536) (final8 m c)).trans (ld_eq m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.KValue

end
-- ==== Proof.AlgebraLdet.lean ====
/-
  The law joining the two ways of computing the log-determinant.

  One program multiplies the second hidden layer by a column holding the row-sums of the log-scale
  weights; the other sums the 64 log-scales themselves.  They agree because
    h * (∑ j, w j) = ∑ j, h * w j
  whenever h is a nonnegative real, and the second hidden layer is a maximum with 0 of a finite
  combination of reals, hence a nonnegative real.  On the extended reals this distributivity fails at
  the infinities, which is why the inputs must be finite.
-/
import proofs.«134817_g2000709431655183_pallaspilot1_68_15_alg».proof.Proof.Spec

noncomputable section

namespace Cert.Coupling

/-- An extended real that is a real number (neither infinity). -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  rcases le_total x 0 with h | h
  · rw [max_eq_right h]; exact IsReal.zero
  · rw [max_eq_left h]; exact hx

theorem IsReal.sum {ι : Type} (s : Finset ι) (f : ι → EReal) (h : ∀ i ∈ s, IsReal (f i)) :
    IsReal (∑ i ∈ s, f i) :=
  Finset.sum_induction f IsReal (fun _ _ => IsReal.add) IsReal.zero h

theorem IsReal.ne_top {x : EReal} (hx : IsReal x) : x ≠ ⊤ := by
  obtain ⟨a, rfl⟩ := hx
  exact EReal.coe_ne_top a

/-- A nonnegative real factor distributes over a finite sum of extended reals. -/
theorem mul_sum_of_nonneg_of_ne_top {ι : Type} {a : EReal} (h0 : 0 ≤ a) (ht : a ≠ ⊤) (s : Finset ι)
    (f : ι → EReal) : a * ∑ i ∈ s, f i = ∑ i ∈ s, a * f i := by
  classical
  refine Finset.induction_on s ?_ ?_
  · simp
  · intro i t hi ih
    rw [Finset.sum_insert hi, Finset.sum_insert hi, EReal.left_distrib_of_nonneg_of_ne_top h0 ht, ih]

section Row
variable (w1 : Fin 64 → Fin 256 → EReal) (b1 : Fin 256 → EReal) (w2 : Fin 256 → Fin 256 → EReal)
  (b2 : Fin 256 → EReal) (w3 : Fin 256 → Fin 128 → EReal) (b3 : Fin 128 → EReal) (xr : Fin 128 → EReal)

/-- The first hidden layer is real when the row, the first weights and the first bias are. -/
theorem hid1_real (hx : ∀ l, ∃ r : ℝ, xr l = (r : EReal)) (hw1 : ∀ c k, ∃ r : ℝ, w1 c k = (r : EReal))
    (hb1 : ∀ k, ∃ r : ℝ, b1 k = (r : EReal)) (k : Fin 256) :
    ∃ r : ℝ, hid1 w1 b1 xr k = (r : EReal) := by
  have h : IsReal (max (∑ c : Fin 64, xr (lo c) * w1 c k + b1 k) 0) :=
    IsReal.max_zero (IsReal.add (IsReal.sum _ _ (fun c _ => IsReal.mul (hx (lo c)) (hw1 c k))) (hb1 k))
  exact h

/-- The second hidden layer is real when the row and the first two layers' weights and biases are. -/
theorem hid2_real (hx : ∀ l, ∃ r : ℝ, xr l = (r : EReal)) (hw1 : ∀ c k, ∃ r : ℝ, w1 c k = (r : EReal))
    (hb1 : ∀ k, ∃ r : ℝ, b1 k = (r : EReal)) (hw2 : ∀ j k, ∃ r : ℝ, w2 j k = (r : EReal))
    (hb2 : ∀ k, ∃ r : ℝ, b2 k = (r : EReal)) (k : Fin 256) :
    ∃ r : ℝ, hid2 w1 b1 w2 b2 xr k = (r : EReal) := by
  have h : IsReal (max (∑ j : Fin 256, hid1 w1 b1 xr j * w2 j k + b2 k) 0) :=
    IsReal.max_zero (IsReal.add
      (IsReal.sum _ _ (fun j _ => IsReal.mul (hid1_real w1 b1 xr hx hw1 hb1 j) (hw2 j k))) (hb2 k))
  exact h

theorem hid2_nonneg (k : Fin 256) : 0 ≤ hid2 w1 b1 w2 b2 xr k := by
  unfold hid2
  exact le_max_right _ _

/-- The second hidden layer against the row-sums of the log-scale weights, plus the sum of the
    log-scale biases, is the sum of the 64 log-scales. -/
theorem ldet_augmented
    (hx : ∀ l, ∃ r : ℝ, xr l = (r : EReal)) (hw1 : ∀ c k, ∃ r : ℝ, w1 c k = (r : EReal))
    (hb1 : ∀ k, ∃ r : ℝ, b1 k = (r : EReal)) (hw2 : ∀ j k, ∃ r : ℝ, w2 j k = (r : EReal))
    (hb2 : ∀ k, ∃ r : ℝ, b2 k = (r : EReal)) (hw3 : ∀ k l, ∃ r : ℝ, w3 k l = (r : EReal)) :
    ∑ k : Fin 256, hid2 w1 b1 w2 b2 xr k * (0 + ∑ j : Fin 64, w3 k (lo j)) + (0 + ∑ j : Fin 64, b3 (lo j))
      = ldet w1 b1 w2 b2 w3 b3 xr := by
  have hne : ∀ k, hid2 w1 b1 w2 b2 xr k ≠ ⊤ := fun k =>
    IsReal.ne_top (hid2_real w1 b1 w2 b2 xr hx hw1 hb1 hw2 hb2 k)
  have hdist : ∀ k : Fin 256, hid2 w1 b1 w2 b2 xr k * (0 + ∑ j : Fin 64, w3 k (lo j))
      = ∑ j : Fin 64, hid2 w1 b1 w2 b2 xr k * w3 k (lo j) := fun k => by
    rw [zero_add]
    exact mul_sum_of_nonneg_of_ne_top (hid2_nonneg w1 b1 w2 b2 xr k) (hne k) _ _
  have hl : ldet w1 b1 w2 b2 w3 b3 xr
      = ∑ j : Fin 64, ∑ k : Fin 256, hid2 w1 b1 w2 b2 xr k * w3 k (lo j) + ∑ j : Fin 64, b3 (lo j) := by
    unfold ldet par
    exact Finset.sum_add_distrib
  rw [hl, zero_add, Finset.sum_comm]
  congr 1
  exact Finset.sum_congr rfl (fun k _ => hdist k)

end Row

end Cert.Coupling

end
-- ==== Proof.LibColumnDrop.lean ====
/-
  A column read back as a vector.

  A matrix with ONE column, shape `[a, 1]`, cast to the vector `[a]` reads, at `i`, the column at `(i, 0)`: both are
  position `i` in row-major order. This is the inverse of casting a vector to a column.
-/
import Idealize.ShloMosaic.Lib.Pipeline.Value
import Idealize.ShloMosaic.Lib.ValueIdx

namespace Cert.LibColumnDrop

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnDrop
-- ==== Proof.RefPayload.lean ====
/-
  The conditioner and the coupling, read off the body's stored values entry by entry.

  The body computes, from a block of 4096 rows and the weights, the three dense layers
    h1 = max (x_a · w1 + b1) 0,  h2 = max (h1 · w2 + b2) 0,  p = h2 · w3' + b3'
  where w3' and b3' carry 129 columns. Each matrix product into a zero accumulator is a finite sum over the
  contracted coordinate; a bias row broadcast over the rows reads its one row; the maximum with the zero
  constant is the maximum with 0. So at row r the hidden layers are the specification's hid1 and hid2 of that
  row, and the last layer at column q is ∑ k, hid2 k · w3' (k, q) + b3' q.
-/
import proofs.«134817_g2000709431655183_pallaspilot1_68_15_alg».proof.Proof.Gen.ReferenceIdeal.Skeleton
import proofs.«134817_g2000709431655183_pallaspilot1_68_15_alg».proof.Proof.Spec
import proofs.«134817_g2000709431655183_pallaspilot1_68_15_alg».proof.Proof.LibPlainProduct
import Idealize.ShloMosaic.Lib.Pipeline.Value
import Idealize.ShloMosaic.Lib.ValueLayout

noncomputable section

namespace Cert.ReferenceIdeal.RPayload

open Idealize.ShloMosaic Idealize.ShloMosaic.ValueIdx Cert.ReferenceIdeal Cert.ReferenceIdeal.Gen Cert.Coupling

/-- A dense layer — a plain product into the zero accumulator plus a bias row broadcast over the rows — at an entry. -/
theorem dense_apply {m k n : Nat} (A : FVec Ideal ⟨2, ![m, k]⟩ .f32) (B : FVec Ideal ⟨2, ![k, n]⟩ .f32)
    (b : FVec Ideal ⟨2, ![1, n]⟩ .f32)
    (hb : (⟨2, ![1, n]⟩ : Shape).Broadcasts ⟨2, ![m, n]⟩) (r : Fin m) (q : Fin n) :
    addf (matmul (DotDims.plain m k n) none A B (constant ⟨2, ![m, n]⟩ .f32 0x00000000#32))
        (broadcastTo ⟨2, ![m, n]⟩ b hb) (ix2 r q)
      = ∑ c : Fin k, A (ix2 r c) * B (ix2 c q) + b (ix2 (0 : Fin 1) q) := by
  show matmul (DotDims.plain m k n) none A B (constant ⟨2, ![m, n]⟩ .f32 0x00000000#32) (ix2 r q)
      + broadcastTo ⟨2, ![m, n]⟩ b hb (ix2 r q) = _
  rw [Cert.LibPlainProduct.matmul_plain_zero_apply, broadcastTo_1b_ab_apply]

/-- The maximum with the broadcast zero constant, at an entry. -/
theorem relu_apply {s : Shape} (X : FVec Ideal s .f32) (i : s.Idx) :
    maximumf X (broadcast s (Scalar.ofBits (F := Ideal) .f32 0x00000000#32)) i = max (X i) 0 := by
  show max (X i) (Ideal.ofBits .f32 0x00000000#32) = _
  rw [Ideal.ofBits_zero_f32]

section Payload
variable (v0 : Vec Ideal S4096x128 .f32) (v3 : Vec Ideal S64x256 .f32) (v5 : Vec Ideal S1x256 .f32)
  (v11 : Vec Ideal S256x256 .f32) (v13 : Vec Ideal S1x256 .f32) (v19 : Vec Ideal S256x129 .f32) (v22 : Vec Ideal S1x129 .f32)

/-- The block's first 64 columns, at an entry. -/
theorem pay1_apply (r : Fin 4096) (c : Fin 64) : k0_pay1 v0 (ix2 r c) = v0 (ix2 r (lo c)) :=
  slice2_axis1_apply 0 v0 slices_S4096x128_o0_0_S4096x64 r c (lo c) (Nat.zero_add _).symm

/-- The last layer's output at row `r` and column `q` of the 129: the specification's second hidden layer of
    row `r` against column `q` of the 129-column weights, plus the 129-entry bias at `q`. -/
theorem pay2_apply (r : Fin 4096) (q : Fin 129) :
    k0_pay2 v0 v3 v5 v11 v13 v19 v22 (ix2 r q)
      = ∑ k : Fin 256, hid2 (fun c k => v3 (ix2 c k)) (fun k => v5 (ix2 (0 : Fin 1) k)) (fun j k => v11 (ix2 j k))
          (fun k => v13 (ix2 (0 : Fin 1) k)) (fun l => v0 (ix2 r l)) k * v19 (ix2 k q) + v22 (ix2 (0 : Fin 1) q) := by
  unfold k0_pay2
  simp only [shapeCast_self]
  refine (dense_apply _ _ _ _ r q).trans ?_
  refine congrArg (· + v22 (ix2 (0 : Fin 1) q)) (Finset.sum_congr rfl fun k _ => congrArg (· * v19 (ix2 k q)) ?_)
  refine (relu_apply _ _).trans (congrArg (max · 0) ?_)
  refine (dense_apply _ _ _ _ r k).trans ?_
  refine congrArg (· + v13 (ix2 (0 : Fin 1) k)) (Finset.sum_congr rfl fun j _ => congrArg (· * v11 (ix2 j k)) ?_)
  refine (relu_apply _ _).trans (congrArg (max · 0) ?_)
  refine (dense_apply _ _ _ _ r j).trans ?_
  refine congrArg (· + v5 (ix2 (0 : Fin 1) j)) (Finset.sum_congr rfl fun c _ => congrArg (· * v3 (ix2 c j)) ?_)
  exact pay1_apply v0 r c

/-- A column of the 128 among the 129. -/
def up (l : Fin 128) : Fin 129 := ⟨l.val, by omega⟩
/-- The 129th column. -/
def last : Fin 129 := ⟨128, by omega⟩

/-- The last layer's first 128 columns are the specification's conditioner output for the first 128 columns of the
    129-column weights and bias. -/
theorem pay2_up (r : Fin 4096) (l : Fin 128) :
    k0_pay2 v0 v3 v5 v11 v13 v19 v22 (ix2 r (up l))
      = par (fun c k => v3 (ix2 c k)) (fun k => v5 (ix2 (0 : Fin 1) k)) (fun j k => v11 (ix2 j k))
          (fun k => v13 (ix2 (0 : Fin 1) k)) (fun k l => v19 (ix2 k (up l))) (fun l => v22 (ix2 (0 : Fin 1) (up l)))
          (fun l => v0 (ix2 r l)) l :=
  pay2_apply v0 v3 v5 v11 v13 v19 v22 r (up l)

/-- The stored block at row `r` and column `l`: the specification's transformed row, for the first 128 columns of the
    129-column weights and bias. -/
theorem pay3_apply (r : Fin 4096) (l : Fin 128) :
    k0_pay3 v0 v3 v5 v11 v13 v19 v22 (ix2 r l)
      = zrow (fun c k => v3 (ix2 c k)) (fun k => v5 (ix2 (0 : Fin 1) k)) (fun j k => v11 (ix2 j k))
          (fun k => v13 (ix2 (0 : Fin 1) k)) (fun k l => v19 (ix2 k (up l))) (fun l => v22 (ix2 (0 : Fin 1) (up l)))
          (fun l => v0 (ix2 r l)) l := by
  unfold k0_pay3 zrow
  by_cases h : l.val < 64
  · rw [dif_pos h]
    refine (concatenate_pair_apply_left 1 _ _ concatenates_S4096x64_S4096x64_S4096x128_d1 (ix2 r l) rfl
      (ix2 r (⟨l.val, h⟩ : Fin 64)) (fun b => by match b with | ⟨0, _⟩ => rfl | ⟨1, _⟩ => rfl)).trans ?_
    exact (pay1_apply v0 r ⟨l.val, h⟩).trans (congrArg (fun x => v0 (ix2 r x)) (Fin.ext rfl))
  · rw [dif_neg h]
    have hl : l.val - 64 < 64 := by have := l.isLt; omega
    refine (concatenate_pair_apply_right 1 _ _ concatenates_S4096x64_S4096x64_S4096x128_d1 (ix2 r l) rfl rfl
      (ix2 r (⟨l.val - 64, hl⟩ : Fin 64))
      (fun b hb => by match b, hb with | ⟨0, _⟩, _ => rfl | ⟨1, _⟩, hb => exact absurd rfl hb)
      (by show (l.val - 64) + 64 = l.val; omega)).trans ?_
    show extractStridedSlice S4096x64 ![0, 64] v0 slices_S4096x128_o0_64_S4096x64 (ix2 r ⟨l.val - 64, hl⟩)
        * Ideal.exp (extractStridedSlice S4096x64 ![0, 0] (k0_pay2 v0 v3 v5 v11 v13 v19 v22) slices_S4096x129_o0_0_S4096x64 (ix2 r ⟨l.val - 64, hl⟩))
        + extractStridedSlice S4096x64 ![0, 64] (k0_pay2 v0 v3 v5 v11 v13 v19 v22) slices_S4096x129_o0_64_S4096x64 (ix2 r ⟨l.val - 64, hl⟩) = _
    rw [slice2_axis1_apply 64 v0 slices_S4096x128_o0_64_S4096x64 r ⟨l.val - 64, hl⟩ l (by show l.val = 64 + (l.val - 64); omega),
      slice2_axis1_apply 0 (k0_pay2 v0 v3 v5 v11 v13 v19 v22) slices_S4096x129_o0_0_S4096x64 r ⟨l.val - 64, hl⟩
        (up ⟨l.val - 64, by omega⟩) (Nat.zero_add _).symm,
      slice2_axis1_apply 64 (k0_pay2 v0 v3 v5 v11 v13 v19 v22) slices_S4096x129_o0_64_S4096x64 r ⟨l.val - 64, hl⟩
        (up l) (by show l.val = 64 + (l.val - 64); omega),
      pay2_up, pay2_up]

/-- The stored column at row `r`: the last layer's 129th column. -/
theorem pay4_apply (r : Fin 4096) :
    k0_pay4 v0 v3 v5 v11 v13 v19 v22 (ix2 r (0 : Fin 1))
      = ∑ k : Fin 256, hid2 (fun c k => v3 (ix2 c k)) (fun k => v5 (ix2 (0 : Fin 1) k)) (fun j k => v11 (ix2 j k))
          (fun k => v13 (ix2 (0 : Fin 1) k)) (fun l => v0 (ix2 r l)) k * v19 (ix2 k last) + v22 (ix2 (0 : Fin 1) last) := by
  unfold k0_pay4
  refine (slice2_axis1_apply 128 _ slices_S4096x129_o0_128_S4096x1 r (0 : Fin 1) last rfl).trans ?_
  exact pay2_apply v0 v3 v5 v11 v13 v19 v22 r last

end Payload

end Cert.ReferenceIdeal.RPayload

end
-- ==== Proof.RefPoint.lean ====
/-
  One row of a block against one row of the whole arrays.

  If the blocks the body loads are the weights as the arguments give them (the 129-column weights and bias agreeing
  with the arguments on their first 128 columns, their 129th holding zero plus the sum over the first 64), and row r
  of the loaded input block is row R of the input array, then the stored block's row r is row R of the
  specification's first result, and the stored column's entry r is the specification's second result at R: there the
  129th column of the last layer, ∑ k, hid2 k · (0 + ∑ j<64, w3 (k, j)) + (0 + ∑ j<64, b3 j), is the sum of the 64
  log-scales when every entry is real, because a real factor distributes over the finite sum.
-/
import proofs.«134817_g2000709431655183_pallaspilot1_68_15_alg».proof.Proof.Spec
import proofs.«134817_g2000709431655183_pallaspilot1_68_15_alg».proof.Proof.RefPayload

noncomputable section

namespace Cert.ReferenceIdeal.RPoint

open Idealize.ShloMosaic Idealize.ShloMosaic.ValueIdx Cert.ReferenceIdeal Cert.ReferenceIdeal.Gen Cert.Coupling
open Cert.ReferenceIdeal.RPayload

/-- The law joining the last layer's 129th column to the sum of the log-scales, for real entries. -/
def LdetLaw : Prop :=
  ∀ (w1 : Fin 64 → Fin 256 → EReal) (b1 : Fin 256 → EReal) (w2 : Fin 256 → Fin 256 → EReal) (b2 : Fin 256 → EReal)
    (w3 : Fin 256 → Fin 128 → EReal) (b3 : Fin 128 → EReal) (xr : Fin 128 → EReal),
    (∀ l, ∃ r : ℝ, xr l = (r : EReal)) → (∀ c k, ∃ r : ℝ, w1 c k = (r : EReal)) → (∀ k, ∃ r : ℝ, b1 k = (r : EReal)) →
    (∀ j k, ∃ r : ℝ, w2 j k = (r : EReal)) → (∀ k, ∃ r : ℝ, b2 k = (r : EReal)) → (∀ k l, ∃ r : ℝ, w3 k l = (r : EReal)) →
    ∑ k : Fin 256, hid2 w1 b1 w2 b2 xr k * (0 + ∑ j : Fin 64, w3 k (lo j)) + (0 + ∑ j : Fin 64, b3 (lo j))
      = ldet w1 b1 w2 b2 w3 b3 xr

section Point
variable (x0 : Vec Ideal S4096x128 .f32) (x1 : Vec Ideal S64x256 .f32) (x2 : Vec Ideal S1x256 .f32)
  (x3 : Vec Ideal S256x256 .f32) (x4 : Vec Ideal S1x256 .f32) (x5 : Vec Ideal S256x129 .f32) (x6 : Vec Ideal S1x129 .f32)
  (a0 : SX.Idx → EReal) (a1 : SW1.Idx → EReal) (a2 : SB.Idx → EReal) (a3 : SW2.Idx → EReal) (a4 : SB.Idx → EReal)
  (a5 : SW3.Idx → EReal) (a6 : SB3.Idx → EReal)

/-- Row r of the stored block is row R of the first result. -/
theorem row_z (h1 : ∀ c k, x1 (ix2 c k) = a1 (ix2 c k)) (h2 : ∀ k, x2 (ix2 (0 : Fin 1) k) = a2 (ix1 k))
    (h3 : ∀ j k, x3 (ix2 j k) = a3 (ix2 j k)) (h4 : ∀ k, x4 (ix2 (0 : Fin 1) k) = a4 (ix1 k))
    (h5 : ∀ k l, x5 (ix2 k (up l)) = a5 (ix2 k l)) (h6 : ∀ l, x6 (ix2 (0 : Fin 1) (up l)) = a6 (ix1 l))
    (r : Fin 4096) (R : Fin 65536) (h0 : ∀ l, x0 (ix2 r l) = a0 (ix2 R l)) (l : Fin 128) :
    k0_pay3 x0 x1 x2 x3 x4 x5 x6 (ix2 r l) = Zarr a0 a1 a2 a3 a4 a5 a6 (ix2 R l) := by
  rw [pay3_apply]
  have e0 : (fun l => x0 (ix2 r l)) = fun l => a0 (ix2 R l) := funext h0
  have e1 : (fun c k => x1 (ix2 c k)) = fun c k => a1 (ix2 c k) := funext fun c => funext fun k => h1 c k
  have e2 : (fun k => x2 (ix2 (0 : Fin 1) k)) = fun k => a2 (ix1 k) := funext h2
  have e3 : (fun j k => x3 (ix2 j k)) = fun j k => a3 (ix2 j k) := funext fun j => funext fun k => h3 j k
  have e4 : (fun k => x4 (ix2 (0 : Fin 1) k)) = fun k => a4 (ix1 k) := funext h4
  have e5 : (fun k l => x5 (ix2 k (up l))) = fun k l => a5 (ix2 k l) := funext fun k => funext fun l => h5 k l
  have e6 : (fun l => x6 (ix2 (0 : Fin 1) (up l))) = fun l => a6 (ix1 l) := funext h6
  rw [e0, e1, e2, e3, e4, e5, e6]
  rfl

/-- Entry r of the stored column is the second result at R, when every entry of the arguments is real. -/
theorem row_ld (law : LdetLaw) (hr0 : AllReal a0) (hr1 : AllReal a1) (hr2 : AllReal a2) (hr3 : AllReal a3) (hr4 : AllReal a4)
    (hr5 : AllReal a5)
    (h1 : ∀ c k, x1 (ix2 c k) = a1 (ix2 c k)) (h2 : ∀ k, x2 (ix2 (0 : Fin 1) k) = a2 (ix1 k))
    (h3 : ∀ j k, x3 (ix2 j k) = a3 (ix2 j k)) (h4 : ∀ k, x4 (ix2 (0 : Fin 1) k) = a4 (ix1 k))
    (h5 : ∀ k, x5 (ix2 k last) = 0 + ∑ j : Fin 64, a5 (ix2 k (lo j)))
    (h6 : x6 (ix2 (0 : Fin 1) last) = 0 + ∑ j : Fin 64, a6 (ix1 (lo j)))
    (r : Fin 4096) (R : Fin 65536) (h0 : ∀ l, x0 (ix2 r l) = a0 (ix2 R l)) :
    k0_pay4 x0 x1 x2 x3 x4 x5 x6 (ix2 r (0 : Fin 1)) = LDarr a0 a1 a2 a3 a4 a5 a6 (ix1 R) := by
  rw [pay4_apply]
  have e0 : (fun l => x0 (ix2 r l)) = fun l => a0 (ix2 R l) := funext h0
  have e1 : (fun c k => x1 (ix2 c k)) = fun c k => a1 (ix2 c k) := funext fun c => funext fun k => h1 c k
  have e2 : (fun k => x2 (ix2 (0 : Fin 1) k)) = fun k => a2 (ix1 k) := funext h2
  have e3 : (fun j k => x3 (ix2 j k)) = fun j k => a3 (ix2 j k) := funext fun j => funext fun k => h3 j k
  have e4 : (fun k => x4 (ix2 (0 : Fin 1) k)) = fun k => a4 (ix1 k) := funext h4
  rw [e0, e1, e2, e3, e4, h6]
  simp only [h5]
  exact law (fun c k => a1 (ix2 c k)) (fun k => a2 (ix1 k)) (fun j k => a3 (ix2 j k)) (fun k => a4 (ix1 k))
    (fun k l => a5 (ix2 k l)) (fun l => a6 (ix1 l)) (fun l => a0 (ix2 R l))
    (fun l => hr0 (ix2 R l)) (fun c k => hr1 (ix2 c k)) (fun k => hr2 (ix1 k)) (fun j k => hr3 (ix2 j k))
    (fun k => hr4 (ix1 k)) (fun k l => hr5 (ix2 k l))

end Point

end Cert.ReferenceIdeal.RPoint

end
-- ==== Proof.RefHost.lean ====
/-
  The arrays the host prepares before the kernel, read entry by entry.

  The third layer's weights get a 129th column holding, for each row k, the initial value 0 plus the sum of the
  row's first 64 entries; the bias gets a 129th entry, 0 plus the sum of its first 64 entries, and is then laid out as
  one row. The first 128 columns (entries) are the arguments'. The two hidden-layer biases are laid out as one row each.
-/
import proofs.«134817_g2000709431655183_pallaspilot1_68_15_alg».proof.Proof.Gen.ReferenceIdeal.Frame
import proofs.«134817_g2000709431655183_pallaspilot1_68_15_alg».proof.Proof.Spec
import proofs.«134817_g2000709431655183_pallaspilot1_68_15_alg».proof.Proof.RefPayload
import Idealize.ShloMosaic.Lib.Pipeline.Value
import Idealize.ShloMosaic.Lib.ValueLayout
import Idealize.ShloMosaic.PureOps.Ideal.Laws

noncomputable section

namespace Cert.ReferenceIdeal.RHost

open Idealize.ShloMosaic Idealize.ShloMosaic.TcCoe Idealize.ShloMosaic.ValueIdx Idealize.SL.Sem
open Cert.ReferenceIdeal Cert.ReferenceIdeal.Gen Cert.Coupling Cert.ReferenceIdeal.RPayload

/-- The third layer's weights with the 129th column appended: row k's entry there is the sum over the row's first 64
    columns, started from the zero constant. -/
def w3aug (a5 : Vec Ideal S256x128 .f32) : Vec Ideal S256x129 .f32 :=
  concatenate S256x129 1 [⟨S256x128, a5⟩, ⟨S256x1, broadcastInDim S256x1 ![0] bcast_S256_S256x1_0
    (Host.reduceAdd (F := Ideal) (extractStridedSlice S256x64 ![0, 0] a5 slices_S256x128_S256x64_0_0)
      (constant (F := Ideal) S_ .f32 0x00000000#32) reducesTo_S256x64_S256_d1 h_S_)⟩] concatenates_S256x128_S256x1_S256x129_d1

/-- Its first 128 columns are the argument's. -/
theorem w3aug_up (a5 : Vec Ideal S256x128 .f32) (k : Fin 256) (l : Fin 128) : w3aug a5 (ix2 k (up l)) = a5 (ix2 k l) :=
  concatenate_pair_apply_left 1 _ _ concatenates_S256x128_S256x1_S256x129_d1 (ix2 k (up l)) rfl (ix2 k l)
    (fun b => by match b with | ⟨0, _⟩ => rfl | ⟨1, _⟩ => rfl)

/-- Its 129th column at row k: zero plus the sum of the row's first 64 entries. -/
theorem w3aug_last (a5 : Vec Ideal S256x128 .f32) (k : Fin 256) :
    w3aug a5 (ix2 k last) = 0 + ∑ j : Fin 64, a5 (ix2 k (lo j)) := by
  unfold w3aug
  refine (concatenate_pair_apply_right 1 _ _ concatenates_S256x128_S256x1_S256x129_d1 (ix2 k last) rfl rfl (ix2 k (0 : Fin 1))
    (fun b hb => by match b, hb with | ⟨0, _⟩, _ => rfl | ⟨1, _⟩, hb => exact absurd rfl hb) (by rfl)).trans ?_
  refine (broadcastInDim_apply _ bcast_S256_S256x1_0 _ (ix2 k (0 : Fin 1)) (ix1 k)
    (fun a => by match a with | ⟨0, _⟩ => rfl)).trans ?_
  have hR : S256x64.Reduces [1] S256 := by decide
  show Ideal.hostReduceAdd reducesTo_S256x64_S256_d1 _ (Ideal.ofBits .f32 0x00000000#32) (ix1 k) = _
  rw [Ideal.hostReduceAdd_single reducesTo_S256x64_S256_d1 hR, Ideal.ofBits_zero_f32]
  show (0 : EReal) + ∑ j : Fin 64, _ = _
  refine congrArg (0 + ·) (Finset.sum_congr rfl fun j _ => ?_)
  exact extractStridedSlice_apply _ a5 slices_S256x128_S256x64_0_0 _ (ix2 k (lo j)) (fun a => by
    match a with
    | ⟨0, _⟩ => exact (Nat.zero_add _).symm
    | ⟨1, _⟩ => exact (Nat.zero_add _).symm)

/-- The third layer's bias with the 129th entry appended — the sum of its first 64 entries, started from the zero
    constant — laid out as one row. -/
def b3aug (a6 : Vec Ideal S128 .f32) : Vec Ideal S1x129 .f32 :=
  shapeCast S1x129 (concatenate S129 0 [⟨S128, a6⟩, ⟨S1, broadcastInDim S1 ![] bcast_S_S1
    (Host.reduceAdd (F := Ideal) (extractStridedSlice S64 ![0] a6 slices_S128_S64_0)
      (constant (F := Ideal) S_ .f32 0x00000000#32) reducesTo_S64_S_d0 h_S_)⟩] concatenates_S128_S1_S129_d0) shapeCasts_S129_S1x129

/-- Its first 128 entries are the argument's. -/
theorem b3aug_up (a6 : Vec Ideal S128 .f32) (l : Fin 128) : b3aug a6 (ix2 (0 : Fin 1) (up l)) = a6 (ix1 l) := by
  unfold b3aug
  refine (shapeCast_a_1a_apply _ shapeCasts_S129_S1x129 (0 : Fin 1) (up l)).trans ?_
  exact concatenate_pair_apply_left 0 _ _ concatenates_S128_S1_S129_d0 (ix1 (up l)) rfl (ix1 l)
    (fun b => by match b with | ⟨0, _⟩ => rfl)

/-- Its 129th entry: zero plus the sum of the argument's first 64 entries. -/
theorem b3aug_last (a6 : Vec Ideal S128 .f32) :
    b3aug a6 (ix2 (0 : Fin 1) last) = 0 + ∑ j : Fin 64, a6 (ix1 (lo j)) := by
  unfold b3aug
  refine (shapeCast_a_1a_apply _ shapeCasts_S129_S1x129 (0 : Fin 1) last).trans ?_
  refine (concatenate_pair_apply_right 0 _ _ concatenates_S128_S1_S129_d0 (ix1 last) rfl rfl (ix1 (0 : Fin 1))
    (fun b hb => by match b, hb with | ⟨0, _⟩, hb => exact absurd rfl hb) (by rfl)).trans ?_
  refine (broadcastInDim_apply _ bcast_S_S1 _ (ix1 (0 : Fin 1)) ix0 (fun a => a.elim0)).trans ?_
  show Ideal.hostReduceAdd reducesTo_S64_S_d0 _ (Ideal.ofBits .f32 0x00000000#32) ix0 = _
  rw [Ideal.hostReduceAdd_total reducesTo_S64_S_d0 (fun b => b.elim0), Ideal.ofBits_zero_f32]
  refine congrArg (0 + ·) ?_
  -- the vector's index set is its one coordinate's
  let e : S64.Idx ≃ Fin 64 := ⟨fun i => i 0, fun j => ix1 j, fun i => (eq_ix1 i).symm, fun _ => rfl⟩
  refine Fintype.sum_equiv e _ _ fun i => ?_
  exact extractStridedSlice_apply _ a6 slices_S128_S64_0 i (ix1 (lo (i 0))) (fun a => by
    match a with
    | ⟨0, _⟩ => exact (Nat.zero_add _).symm)

/-- A bias of 256 entries laid out as one row reads its entry. -/
theorem row_apply (a : Vec Ideal S256 .f32) (k : Fin 256) :
    shapeCast S1x256 a shapeCasts_S256_S1x256 (ix2 (0 : Fin 1) k) = a (ix1 k) :=
  shapeCast_a_1a_apply a shapeCasts_S256_S1x256 (0 : Fin 1) k

section Entry
variable (m : (ℓ : Loc nD τ sig) → Buf (Elt Ideal) ℓ)

/-- The kernel finds the 129-column weights prepared from the sixth argument. -/
theorem V_v3 (c : Dev nD) : (V m c main_v3 : S256x129.Idx → EReal) = w3aug (m ((c : Thread nD τ).loc main_arg5)) := by
  show StableHlo.after hostOps0 (fun b => m (c, b)) (Proc.devRef .tc main_v3) = _
  after_results
  rfl

/-- The kernel finds the 129-entry bias row prepared from the seventh argument. -/
theorem V_v8 (c : Dev nD) : (V m c main_v8 : S1x129.Idx → EReal) = b3aug (m ((c : Thread nD τ).loc main_arg6)) := by
  show StableHlo.after hostOps0 (fun b => m (c, b)) (Proc.devRef .tc main_v8) = _
  after_results
  rfl

/-- The kernel finds the first hidden layer's bias as one row. -/
theorem V_v9 (c : Dev nD) : (V m c main_v9 : S1x256.Idx → EReal)
    = shapeCast S1x256 (m ((c : Thread nD τ).loc main_arg2) : S256.Idx → EReal) shapeCasts_S256_S1x256 := by
  show StableHlo.after hostOps0 (fun b => m (c, b)) (Proc.devRef .tc main_v9) = _
  after_results
  rfl

/-- The kernel finds the second hidden layer's bias as one row. -/
theorem V_v10 (c : Dev nD) : (V m c main_v10 : S1x256.Idx → EReal)
    = shapeCast S1x256 (m ((c : Thread nD τ).loc main_arg4) : S256.Idx → EReal) shapeCasts_S256_S1x256 := by
  show StableHlo.after hostOps0 (fun b => m (c, b)) (Proc.devRef .tc main_v10) = _
  after_results
  rfl

end Entry

end Cert.ReferenceIdeal.RHost

end
-- ==== Proof.RefBlocks.lean ====
/-
  The blocks the kernel's windows hold at a grid point, as parts of the arrays.

  The grid has 16 points. At point t the input window and the two output windows hold rows 4096·t … 4096·t + 4095 of
  their arrays (all 128 columns, or the one column); each of the six weight windows holds its whole array at every
  point. An element at (r, l) inside a block sits in the array at (block index · block size + r, l).
-/
import proofs.«134817_g2000709431655183_pallaspilot1_68_15_alg».proof.Proof.Gen.ReferenceIdeal.Frame
import Idealize.ShloMosaic.Lib.Pipeline.Value
import Idealize.ShloMosaic.Lib.ValueIdx

noncomputable section

namespace Cert.ReferenceIdeal.RBlocks

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ)

/-- The block indices, decided over the 16 points: the row-blocked windows move with the point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row r of the input block at point t is row 4096·t + r of the input array. -/
theorem blk0 (c : Dev nD) (t : Fin cfg0.N) (r : Fin 4096) (l : Fin 128) (R : Fin 65536) (hR : R.val = t.val * 4096 + r.val) :
    (iblk m c 0 t : Vec Ideal S4096x128 .f32) (ix2 r l)
      = (m ((c : Thread nD τ).loc main_arg0) : S65536x128.Idx → EReal) (ix2 R l) := by
  obtain ⟨e0, e1, -⟩ := idx_facts t
  unfold iblk
  rw [View.read_apply]
  show V m c main_arg0 _ = _
  rw [V_main_arg0]
  refine congrArg (m ((c : Thread nD τ).loc main_arg0) : S65536x128.Idx → EReal) (funext fun a => Fin.ext ?_)
  match a with
  | ⟨0, _⟩ => show win0_0.index t (0 : Fin 2) * 4096 + 1 * r.val = R.val; rw [e0, hR]; omega
  | ⟨1, _⟩ => show win0_0.index t (1 : Fin 2) * 128 + 1 * l.val = l.val; rw [e1]; omega

/-- The first layer's weights: one block, the whole array. -/
theorem blk1 (c : Dev nD) (t : Fin cfg0.N) (a b : Fin _) :
    (iblk m c 1 t : Vec Ideal S64x256 .f32) (ix2 a b)
      = (m ((c : Thread nD τ).loc main_arg1) : S64x256.Idx → EReal) (ix2 a b) := by
  obtain ⟨-, -, e0, e1, -⟩ := idx_facts t
  unfold iblk
  rw [View.read_apply]
  show V m c main_arg1 _ = _
  rw [V_main_arg1]
  refine congrArg (m ((c : Thread nD τ).loc main_arg1) : S64x256.Idx → EReal) (funext fun x => Fin.ext ?_)
  match x with
  | ⟨0, _⟩ => show win0_1.index t (0 : Fin 2) * 64 + 1 * a.val = a.val; rw [e0]; omega
  | ⟨1, _⟩ => show win0_1.index t (1 : Fin 2) * 256 + 1 * b.val = b.val; rw [e1]; omega

/-- The first bias row: one block, the whole array the kernel finds. -/
theorem blk2 (c : Dev nD) (t : Fin cfg0.N) (a : Fin 1) (b : Fin 256) :
    (iblk m c 2 t : Vec Ideal S1x256 .f32) (ix2 a b) = (V m c main_v9 : S1x256.Idx → EReal) (ix2 a b) := by
  obtain ⟨-, -, -, -, e0, e1, -⟩ := idx_facts t
  unfold iblk
  rw [View.read_apply]
  show V m c main_v9 _ = _
  refine congrArg (V m c main_v9 : S1x256.Idx → EReal) (funext fun x => Fin.ext ?_)
  match x with
  | ⟨0, _⟩ => show win0_2.index t (0 : Fin 2) * 1 + 1 * a.val = a.val; rw [e0]; omega
  | ⟨1, _⟩ => show win0_2.index t (1 : Fin 2) * 256 + 1 * b.val = b.val; rw [e1]; omega

/-- The second layer's weights: one block, the whole array. -/
theorem blk3 (c : Dev nD) (t : Fin cfg0.N) (a b : Fin 256) :
    (iblk m c 3 t : Vec Ideal S256x256 .f32) (ix2 a b)
      = (m ((c : Thread nD τ).loc main_arg3) : S256x256.Idx → EReal) (ix2 a b) := by
  obtain ⟨-, -, -, -, -, -, e0, e1, -⟩ := idx_facts t
  unfold iblk
  rw [View.read_apply]
  show V m c main_arg3 _ = _
  rw [V_main_arg3]
  refine congrArg (m ((c : Thread nD τ).loc main_arg3) : S256x256.Idx → EReal) (funext fun x => Fin.ext ?_)
  match x with
  | ⟨0, _⟩ => show win0_3.index t (0 : Fin 2) * 256 + 1 * a.val = a.val; rw [e0]; omega
  | ⟨1, _⟩ => show win0_3.index t (1 : Fin 2) * 256 + 1 * b.val = b.val; rw [e1]; omega

/-- The second bias row: one block, the whole array the kernel finds. -/
theorem blk4 (c : Dev nD) (t : Fin cfg0.N) (a : Fin 1) (b : Fin 256) :
    (iblk m c 4 t : Vec Ideal S1x256 .f32) (ix2 a b) = (V m c main_v10 : S1x256.Idx → EReal) (ix2 a b) := by
  obtain ⟨-, -, -, -, -, -, -, -, e0, e1, -⟩ := idx_facts t
  unfold iblk
  rw [View.read_apply]
  show V m c main_v10 _ = _
  refine congrArg (V m c main_v10 : S1x256.Idx → EReal) (funext fun x => Fin.ext ?_)
  match x with
  | ⟨0, _⟩ => show win0_4.index t (0 : Fin 2) * 1 + 1 * a.val = a.val; rw [e0]; omega
  | ⟨1, _⟩ => show win0_4.index t (1 : Fin 2) * 256 + 1 * b.val = b.val; rw [e1]; omega

/-- The 129-column weights: one block, the whole array the kernel finds. -/
theorem blk5 (c : Dev nD) (t : Fin cfg0.N) (a : Fin 256) (b : Fin 129) :
    (iblk m c 5 t : Vec Ideal S256x129 .f32) (ix2 a b) = (V m c main_v3 : S256x129.Idx → EReal) (ix2 a b) := by
  obtain ⟨-, -, -, -, -, -, -, -, -, -, e0, e1, -⟩ := idx_facts t
  unfold iblk
  rw [View.read_apply]
  show V m c main_v3 _ = _
  refine congrArg (V m c main_v3 : S256x129.Idx → EReal) (funext fun x => Fin.ext ?_)
  match x with
  | ⟨0, _⟩ => show win0_5.index t (0 : Fin 2) * 256 + 1 * a.val = a.val; rw [e0]; omega
  | ⟨1, _⟩ => show win0_5.index t (1 : Fin 2) * 129 + 1 * b.val = b.val; rw [e1]; omega

/-- The 129-entry bias row: one block, the whole array the kernel finds. -/
theorem blk6 (c : Dev nD) (t : Fin cfg0.N) (a : Fin 1) (b : Fin 129) :
    (iblk m c 6 t : Vec Ideal S1x129 .f32) (ix2 a b) = (V m c main_v8 : S1x129.Idx → EReal) (ix2 a b) := by
  obtain ⟨-, -, -, -, -, -, -, -, -, -, -, -, e0, e1, -⟩ := idx_facts t
  unfold iblk
  rw [View.read_apply]
  show V m c main_v8 _ = _
  refine congrArg (V m c main_v8 : S1x129.Idx → EReal) (funext fun x => Fin.ext ?_)
  match x with
  | ⟨0, _⟩ => show win0_6.index t (0 : Fin 2) * 1 + 1 * a.val = a.val; rw [e0]; omega
  | ⟨1, _⟩ => show win0_6.index t (1 : Fin 2) * 129 + 1 * b.val = b.val; rw [e1]; omega

/-- An element of the first output's block at point t sits at row 4096·t + r of the array. -/
theorem emb7 (t : Fin cfg0.N) (r : Fin 4096) (l : Fin 128) (R : Fin 65536) (hR : R.val = t.val * 4096 + r.val) :
    ((cfg0.win 7).blk t).view.emb (ix2 r l) = (ix2 R l : S65536x128.Idx) := by
  obtain ⟨-, -, -, -, -, -, -, -, -, -, -, -, -, -, e0, e1, -⟩ := idx_facts t
  refine funext fun x => Fin.ext ?_
  match x with
  | ⟨0, _⟩ => show win0_7.index t (0 : Fin 2) * 4096 + 1 * r.val = R.val; rw [e0, hR]; omega
  | ⟨1, _⟩ => show win0_7.index t (1 : Fin 2) * 128 + 1 * l.val = l.val; rw [e1]; omega

/-- An element of the second output's block at point t sits at row 4096·t + r of the one-column array. -/
theorem emb8 (t : Fin cfg0.N) (r : Fin 4096) (z : Fin 1) (R : Fin 65536) (hR : R.val = t.val * 4096 + r.val) :
    ((cfg0.win 8).blk t).view.emb (ix2 r z) = (ix2 R (0 : Fin 1) : S65536x1.Idx) := by
  obtain ⟨-, -, -, -, -, -, -, -, -, -, -, -, -, -, -, -, e0, e1⟩ := idx_facts t
  refine funext fun x => Fin.ext ?_
  match x with
  | ⟨0, _⟩ => show win0_8.index t (0 : Fin 2) * 4096 + 1 * r.val = R.val; rw [e0, hR]; omega
  | ⟨1, _⟩ => show win0_8.index t (1 : Fin 2) * 1 + 1 * z.val = 0; rw [e1]; omega

end Cert.ReferenceIdeal.RBlocks

end
-- ==== Proof.RefFinal.lean ====
/-
  From blocks to whole arrays.

  At every grid point t the kernel writes back, into rows 4096·t … 4096·t + 4095 of the two output arrays, the stored
  block and the stored column computed from row block t of the input and the whole weights. Row by row these are the
  specification's results, so each write-back is block t of ONE function of the arguments; the 16 blocks cover all
  65536 rows (row R lies in block R / 4096), so each output array ends holding that function.
-/
import proofs.«134817_g2000709431655183_pallaspilot1_68_15_alg».proof.Proof.Gen.ReferenceIdeal.Frame
import proofs.«134817_g2000709431655183_pallaspilot1_68_15_alg».proof.Proof.Spec
import proofs.«134817_g2000709431655183_pallaspilot1_68_15_alg».proof.Proof.RefPayload
import proofs.«134817_g2000709431655183_pallaspilot1_68_15_alg».proof.Proof.RefPoint
import proofs.«134817_g2000709431655183_pallaspilot1_68_15_alg».proof.Proof.RefHost
import proofs.«134817_g2000709431655183_pallaspilot1_68_15_alg».proof.Proof.RefBlocks
import Idealize.ShloMosaic.Lib.Pipeline.Value

noncomputable section

namespace Cert.ReferenceIdeal.RFinal

open Idealize.ShloMosaic Idealize.ShloMosaic.TcCoe Idealize.ShloMosaic.ValueIdx Idealize.SL.Sem
open Idealize.ShloMosaic.Pipeline (Dat)
open Cert.ReferenceIdeal Cert.ReferenceIdeal.Gen Cert.Coupling
open Cert.ReferenceIdeal.RPayload Cert.ReferenceIdeal.RPoint Cert.ReferenceIdeal.RHost Cert.ReferenceIdeal.RBlocks

variable (m : (ℓ : Loc nD τ sig) → Buf (Elt Ideal) ℓ)

theorem hz : (![0, 0] : Fin 2 → Nat) = fun _ => 0 := funext fun a => by fin_cases a <;> rfl

/-- The first result, of the arguments as launched. -/
abbrev Z (c : Dev nD) : S65536x128.Idx → EReal :=
  Zarr (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The second result, of the arguments as launched. -/
abbrev LD (c : Dev nD) : S65536.Idx → EReal :=
  LDarr (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The second result as the one-column array the kernel writes. -/
abbrev LDcol (c : Dev nD) : S65536x1.Idx → EReal := fun i => LD m c (ix1 (i 0))

/-- What point t writes back to the first output is block t of the first result. -/
theorem flushed7_eq (c : Dev nD) (t : Fin cfg0.N) :
    (dats m 0 c).flushed 7 t = ((cfg0.win 7).blk t).view.read (Elt Ideal) (Z m c) := by
  show (cfg0.win 7).cut (grid0.coords t) ((dats m 0 c).after 7 t) = _
  rw [after0_7]
  unfold out0_7
  rw [View.canon_unit_zero hz]
  simp only [View.ld_unit_zero (S := S4096x128) hz, View.ld_unit_zero (S := S64x256) hz, View.ld_unit_zero (S := S1x256) hz,
    View.ld_unit_zero (S := S256x256) hz, View.ld_unit_zero (S := S256x129) hz, View.ld_unit_zero (S := S1x129) hz]
  funext y
  obtain ⟨r, l, rfl⟩ : ∃ (r : Fin 4096) (l : Fin 128), y = ix2 r l := ⟨y 0, y 1, eq_ix2 y⟩
  have hN : cfg0.N = 16 := N_0
  have ht := t.isLt
  have hr := r.isLt
  obtain ⟨R, hR⟩ : ∃ R : Fin 65536, R.val = t.val * 4096 + r.val := ⟨⟨t.val * 4096 + r.val, by omega⟩, rfl⟩
  show k0_pay3 (iblk m c 0 t) (iblk m c 1 t) (iblk m c 2 t) (iblk m c 3 t) (iblk m c 4 t) (iblk m c 5 t) (iblk m c 6 t) (ix2 r l)
    = Z m c (((cfg0.win 7).blk t).view.emb (ix2 r l))
  rw [emb7 t r l R hR]
  exact row_z (iblk m c 0 t) (iblk m c 1 t) (iblk m c 2 t) (iblk m c 3 t) (iblk m c 4 t) (iblk m c 5 t) (iblk m c 6 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))
    (fun a b => blk1 m c t a b)
    (fun k => (blk2 m c t 0 k).trans ((congrFun (V_v9 m c) (ix2 (0 : Fin 1) k)).trans (row_apply _ k)))
    (fun a b => blk3 m c t a b)
    (fun k => (blk4 m c t 0 k).trans ((congrFun (V_v10 m c) (ix2 (0 : Fin 1) k)).trans (row_apply _ k)))
    (fun k l => (blk5 m c t k (up l)).trans ((congrFun (V_v3 m c) (ix2 k (up l))).trans (w3aug_up _ k l)))
    (fun l => (blk6 m c t 0 (up l)).trans ((congrFun (V_v8 m c) (ix2 (0 : Fin 1) (up l))).trans (b3aug_up _ l)))
    r R (fun l' => blk0 m c t r l' R hR) l

/-- Every entry of every argument is real. -/
def Fin7 (c : Dev nD) : Prop :=
  AllReal (m ((c.tc : Thread nD τ).loc main_arg0)) ∧ AllReal (m ((c.tc : Thread nD τ).loc main_arg1)) ∧ AllReal (m ((c.tc : Thread nD τ).loc main_arg2))
    ∧ AllReal (m ((c.tc : Thread nD τ).loc main_arg3)) ∧ AllReal (m ((c.tc : Thread nD τ).loc main_arg4)) ∧ AllReal (m ((c.tc : Thread nD τ).loc main_arg5))
    ∧ AllReal (m ((c.tc : Thread nD τ).loc main_arg6))

/-- What point t writes back to the second output is block t of the second result's column, when every entry of the
    arguments is real. -/
theorem flushed8_eq (law : LdetLaw) (c : Dev nD) (hfin : Fin7 m c) (t : Fin cfg0.N) :
    (dats m 0 c).flushed 8 t = ((cfg0.win 8).blk t).view.read (Elt Ideal) (LDcol m c) := by
  obtain ⟨hr0, hr1, hr2, hr3, hr4, hr5, -⟩ := hfin
  show (cfg0.win 8).cut (grid0.coords t) ((dats m 0 c).after 8 t) = _
  rw [after0_8]
  unfold out0_8
  rw [View.canon_unit_zero hz]
  simp only [View.ld_unit_zero (S := S4096x128) hz, View.ld_unit_zero (S := S64x256) hz, View.ld_unit_zero (S := S1x256) hz,
    View.ld_unit_zero (S := S256x256) hz, View.ld_unit_zero (S := S256x129) hz, View.ld_unit_zero (S := S1x129) hz]
  funext y
  obtain ⟨r, z, rfl⟩ : ∃ (r : Fin 4096) (z : Fin 1), y = ix2 r z := ⟨y 0, y 1, eq_ix2 y⟩
  obtain rfl : z = 0 := Subsingleton.elim _ _
  have hN : cfg0.N = 16 := N_0
  have ht := t.isLt
  have hr := r.isLt
  obtain ⟨R, hR⟩ : ∃ R : Fin 65536, R.val = t.val * 4096 + r.val := ⟨⟨t.val * 4096 + r.val, by omega⟩, rfl⟩
  show k0_pay4 (iblk m c 0 t) (iblk m c 1 t) (iblk m c 2 t) (iblk m c 3 t) (iblk m c 4 t) (iblk m c 5 t) (iblk m c 6 t) (ix2 r (0 : Fin 1))
    = LDcol m c (((cfg0.win 8).blk t).view.emb (ix2 r (0 : Fin 1)))
  rw [emb8 t r 0 R hR]
  show _ = LD m c (ix1 R)
  exact row_ld (iblk m c 0 t) (iblk m c 1 t) (iblk m c 2 t) (iblk m c 3 t) (iblk m c 4 t) (iblk m c 5 t) (iblk m c 6 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) law hr0 hr1 hr2 hr3 hr4 hr5
    (fun a b => blk1 m c t a b)
    (fun k => (blk2 m c t 0 k).trans ((congrFun (V_v9 m c) (ix2 (0 : Fin 1) k)).trans (row_apply _ k)))
    (fun a b => blk3 m c t a b)
    (fun k => (blk4 m c t 0 k).trans ((congrFun (V_v10 m c) (ix2 (0 : Fin 1) k)).trans (row_apply _ k)))
    (fun k => (blk5 m c t k last).trans ((congrFun (V_v3 m c) (ix2 k last)).trans (w3aug_last _ k)))
    ((blk6 m c t 0 last).trans ((congrFun (V_v8 m c) (ix2 (0 : Fin 1) last)).trans (b3aug_last _)))
    r R (fun l' => blk0 m c t r l' R hR)

/-- An index of the first output array is in point t's block iff each coordinate is in the block's range on its axis. -/
theorem mem_blk7 (t : Fin cfg0.N) (i : S65536x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v11_0).slice (win0_7.rect t)).set ↔ _
  rw [View.set_slice_whole, Rect.mem_set_unit]
  exact Iff.rfl

/-- The same for the second output array. -/
theorem mem_blk8 (t : Fin cfg0.N) (i : S65536x1.Idx) :
    i ∈ ((cfg0.win 8).blk t).view.set ↔ ∀ a : Fin 2, win0_8.index t a * S4096x1.size a ≤ (i a).val ∧ (i a).val < win0_8.index t a * S4096x1.size a + S4096x1.size a := by
  show i ∈ ((View.whole main_v11_1).slice (win0_8.rect t)).set ↔ _
  rw [View.set_slice_whole, Rect.mem_set_unit]
  exact Iff.rfl

/-- Row R of the first output lies in the block of point R / 4096. -/
theorem cover7 (i : S65536x128.Idx) :
    ∃ t : Fin cfg0.N, (cfg0.win 7).flush t = true ∧ i ∈ ((cfg0.win 7).blk t).view.set := by
  have hN : cfg0.N = 16 := N_0
  have hi0 : (i 0).val < 65536 := (i 0).isLt
  have hi1 : (i 1).val < 128 := (i 1).isLt
  obtain ⟨t, ht⟩ : ∃ t : Fin cfg0.N, t.val = (i 0).val / 4096 := ⟨⟨(i 0).val / 4096, by omega⟩, rfl⟩
  refine ⟨t, flush0_7 t, ?_⟩
  rw [mem_blk7]
  obtain ⟨-, -, -, -, -, -, -, -, -, -, -, -, -, -, e0, e1, -⟩ := idx_facts t
  intro a
  match a with
  | ⟨0, _⟩ => show win0_7.index t (0 : Fin 2) * 4096 ≤ (i 0).val ∧ (i 0).val < win0_7.index t (0 : Fin 2) * 4096 + 4096; rw [e0, ht]; omega
  | ⟨1, _⟩ => show win0_7.index t (1 : Fin 2) * 128 ≤ (i 1).val ∧ (i 1).val < win0_7.index t (1 : Fin 2) * 128 + 128; rw [e1]; omega

/-- Row R of the second output lies in the block of point R / 4096. -/
theorem cover8 (i : S65536x1.Idx) :
    ∃ t : Fin cfg0.N, (cfg0.win 8).flush t = true ∧ i ∈ ((cfg0.win 8).blk t).view.set := by
  have hN : cfg0.N = 16 := N_0
  have hi0 : (i 0).val < 65536 := (i 0).isLt
  have hi1 : (i 1).val < 1 := (i 1).isLt
  obtain ⟨t, ht⟩ : ∃ t : Fin cfg0.N, t.val = (i 0).val / 4096 := ⟨⟨(i 0).val / 4096, by omega⟩, rfl⟩
  refine ⟨t, flush0_8 t, ?_⟩
  rw [mem_blk8]
  obtain ⟨-, -, -, -, -, -, -, -, -, -, -, -, -, -, -, -, e0, e1⟩ := idx_facts t
  intro a
  match a with
  | ⟨0, _⟩ => show win0_8.index t (0 : Fin 2) * 4096 ≤ (i 0).val ∧ (i 0).val < win0_8.index t (0 : Fin 2) * 4096 + 4096; rw [e0, ht]; omega
  | ⟨1, _⟩ => show win0_8.index t (1 : Fin 2) * 1 ≤ (i 1).val ∧ (i 1).val < win0_8.index t (1 : Fin 2) * 1 + 1; rw [e1]; omega

/-- The first output array after the run is the first result. -/
theorem final7 (c : Dev nD) : (dats m 0 c).arrAt 7 cfg0.N = Z m c :=
  (dats m 0 c).arrAt_eq_of_cover 7 (Z m c) (fun t _ => flushed7_eq m c t) cover7

/-- The second output array after the run is the second result's column, when every entry of the arguments is real. -/
theorem final8 (law : LdetLaw) (c : Dev nD) (hfin : Fin7 m c) : (dats m 0 c).arrAt 8 cfg0.N = LDcol m c :=
  (dats m 0 c).arrAt_eq_of_cover 8 (LDcol m c) (fun t _ => flushed8_eq m law c hfin t) cover8

end Cert.ReferenceIdeal.RFinal

end
-- ==== Proof.RefValue.lean ====
/-
  The reference program's run, read: its two results are the specification's arrays.

  The kernel's region leaves the first output array at the first result and the one-column second output at the second
  result's column (the blocks cover the arrays); the one host operation after the region casts that column to a vector,
  which reads the column at (i, 0). The 129th column of the last layer is the sum of the log-scales because every entry
  of the arguments is real. The arguments are left as launched.
-/
import proofs.«134817_g2000709431655183_pallaspilot1_68_15_alg».proof.Proof.Gen.ReferenceIdeal.Frame
import proofs.«134817_g2000709431655183_pallaspilot1_68_15_alg».proof.Proof.Spec
import proofs.«134817_g2000709431655183_pallaspilot1_68_15_alg».proof.Proof.AlgebraLdet
import proofs.«134817_g2000709431655183_pallaspilot1_68_15_alg».proof.Proof.LibColumnDrop
import proofs.«134817_g2000709431655183_pallaspilot1_68_15_alg».proof.Proof.RefPoint
import proofs.«134817_g2000709431655183_pallaspilot1_68_15_alg».proof.Proof.RefFinal

noncomputable section

namespace Cert.ReferenceIdeal.RValue

open Idealize.ShloMosaic Idealize.ShloMosaic.TcCoe Idealize.SL.Sem Cert.ReferenceIdeal Cert.Coupling
open Idealize.ShloMosaic.ValueIdx
open Cert.ReferenceIdeal.Gen Cert.ReferenceIdeal.RFinal

/-- The law joining the 129th column to the sum of the log-scales, for real entries. -/
theorem law : Cert.ReferenceIdeal.RPoint.LdetLaw :=
  fun w1 b1 w2 b2 w3 b3 xr hx hw1 hb1 hw2 hb2 hw3 => ldet_augmented w1 b1 w2 b2 w3 b3 xr hx hw1 hb1 hw2 hb2 hw3

/-- The host operation after the region leaves the second result: the column cast to a vector. -/
theorem tail (m : (ℓ : Loc nD τ sig) → Buf (Elt Ideal) ℓ) (c : Dev nD) (hfin : Fin7 m c) :
    Pipeline.afterTail₀ cfgs (dats m) 0 (V0 m) [hostOps1] c main_v12 = LD m c := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.tc.devRef main_v11_1)
      = (dats m 0 c).arrAt 8 cfg0.N := Pipeline.withArrays_arr spec0 launch0.win.arr_inj c _ _ 8
  rw [e, final8 m law c hfin]
  funext i
  obtain ⟨R, rfl⟩ : ∃ R : Fin 65536, i = ix1 R := ⟨i 0, eq_ix1 i⟩
  exact Cert.LibColumnDrop.shapeCast_a1_a_apply _ _ R

theorem run [Cert.ReferenceIdeal.Facts] (m : (ℓ : Loc nD τ sig) → Buf (Elt Ideal) ℓ) (ρ : Dev nD → PrngReg)
    (hfin : ∀ c : Dev nD, AllReal (m ((c.tc : Thread nD τ).loc main_arg0)) ∧ AllReal (m ((c.tc : Thread nD τ).loc main_arg1)) ∧ AllReal (m ((c.tc : Thread nD τ).loc main_arg2))
      ∧ AllReal (m ((c.tc : Thread nD τ).loc main_arg3)) ∧ AllReal (m ((c.tc : Thread nD τ).loc main_arg4)) ∧ AllReal (m ((c.tc : Thread nD τ).loc main_arg5)) ∧ AllReal (m ((c.tc : Thread nD τ).loc main_arg6))) :
    θ_run (defs (F := Ideal)) (onTc (τ := τ) (main (F := Ideal))) ⟨m, fun _ => 0, ρ⟩ (fun r => ∀ c : Dev nD,
      r.2.mem ((c.tc : Thread nD τ).loc main_v11_0)
        = Zarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v12)
        = LDarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c),
      ((h c).2 main_v12 (Pipeline.mem_restRefs_of main_v12 (by decide) (by decide))).trans (tail m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.ReferenceIdeal.RValue

end
-- ==== Proof.lean ====
/-
  The certificate of the affine coupling layer.

  The kernel packs the conditioner's weights once, at the first grid point, into scratch buffers — the first-layer
  weights over 64 rows of zeros, the third-layer weights and bias into 256 columns [0 | log-scales | 0 | shifts] — and
  then computes, for every row `x` of the input, `z = x · exp(PA) + PS` over all 128 lanes and the lane sum of `PA`.
  On the extended reals the zero rows and columns contribute `x · 0 = 0`, so the first 64 lanes of `z` are `x · exp 0 + 0 = x`,
  the last 64 are `x · exp(log-scale) + shift`, and the lane sum is the sum of the 64 log-scales. The reference appends to
  the third-layer weights a 129th column holding the row sums of the log-scale columns, so that its log-determinant is
  `∑ₖ h₂ₖ · (∑ⱼ w₃ₖⱼ) + ∑ⱼ b₃ⱼ`; this is `∑ⱼ (∑ₖ h₂ₖ · w₃ₖⱼ + b₃ⱼ)` when every input is finite (the hidden activations
  are then real numbers and multiplication distributes over the sums), which is the certificate's precondition.

  Both programs' results are stated as the same whole-array functions `Zarr`, `LDarr` of the argument arrays
  (Proof/Spec.lean): the kernel's run in Proof/KRun.lean, the reference's in Proof/RefValue.lean, the finiteness of the
  inputs read out of the precondition in Proof/Finite.lean. The three frames are the generated ones; the idealization
  rewrote nothing.
-/
import proofs.«134817_g2000709431655183_pallaspilot1_68_15_alg».proof.Defs
import proofs.«134817_g2000709431655183_pallaspilot1_68_15_alg».proof.Proof.Gen.Kernel
import proofs.«134817_g2000709431655183_pallaspilot1_68_15_alg».proof.Proof.Gen.Kernel.Frame
import proofs.«134817_g2000709431655183_pallaspilot1_68_15_alg».proof.Proof.Gen.KernelIdeal
import proofs.«134817_g2000709431655183_pallaspilot1_68_15_alg».proof.Proof.Gen.KernelIdeal.Frame
import proofs.«134817_g2000709431655183_pallaspilot1_68_15_alg».proof.Proof.Gen.ReferenceIdeal
import proofs.«134817_g2000709431655183_pallaspilot1_68_15_alg».proof.Proof.Gen.ReferenceIdeal.Frame
import proofs.«134817_g2000709431655183_pallaspilot1_68_15_alg».proof.Proof.Gen.Pre_finite_inputs
import proofs.«134817_g2000709431655183_pallaspilot1_68_15_alg».proof.Proof.Spec
import proofs.«134817_g2000709431655183_pallaspilot1_68_15_alg».proof.Proof.Finite
import proofs.«134817_g2000709431655183_pallaspilot1_68_15_alg».proof.Proof.KRun
import proofs.«134817_g2000709431655183_pallaspilot1_68_15_alg».proof.Proof.RefValue

noncomputable section

namespace Cert.Proof

open Idealize.ShloMosaic Idealize.ShloMosaic.TcCoe Idealize.SL.Sem Cert.Coupling

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- Both idealized programs end with the transformed array and the rows' log-determinants of the same arguments. -/
theorem algebraic : Cert.algebraic_KernelIdeal_ReferenceIdeal := by
  intro m ρ m' ρ' hpre hagree
  refine ⟨fun c => Zarr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => LDarr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.KValue.run m ρ, ?_⟩
  have hfin : ∀ c : Dev Cert.ReferenceIdeal.nD, AllReal (m' ((c.tc : Thread Cert.ReferenceIdeal.nD Cert.ReferenceIdeal.τ).loc Cert.ReferenceIdeal.main_arg0)) ∧ AllReal (m' ((c.tc : Thread Cert.ReferenceIdeal.nD Cert.ReferenceIdeal.τ).loc Cert.ReferenceIdeal.main_arg1)) ∧ AllReal (m' ((c.tc : Thread Cert.ReferenceIdeal.nD Cert.ReferenceIdeal.τ).loc Cert.ReferenceIdeal.main_arg2)) ∧ AllReal (m' ((c.tc : Thread Cert.ReferenceIdeal.nD Cert.ReferenceIdeal.τ).loc Cert.ReferenceIdeal.main_arg3))
      ∧ AllReal (m' ((c.tc : Thread Cert.ReferenceIdeal.nD Cert.ReferenceIdeal.τ).loc Cert.ReferenceIdeal.main_arg4)) ∧ AllReal (m' ((c.tc : Thread Cert.ReferenceIdeal.nD Cert.ReferenceIdeal.τ).loc Cert.ReferenceIdeal.main_arg5)) ∧ AllReal (m' ((c.tc : Thread Cert.ReferenceIdeal.nD Cert.ReferenceIdeal.τ).loc Cert.ReferenceIdeal.main_arg6)) := fun c => by
    obtain ⟨h0, h1, h2, h3, h4, h5, h6⟩ := hagree c
    rw [h0, h1, h2, h3, h4, h5, h6]
    exact allReal_of_pre _ _ _ _ _ _ _ (hpre c)
  refine (θ_run Cert.ReferenceIdeal.defs _ _).mono (fun r h c => ?_) (Cert.ReferenceIdeal.RValue.run m' ρ' hfin)
  obtain ⟨h0, h1, h2, h3, h4, h5, h6⟩ := hagree c
  obtain ⟨hz, hl, k0, k1, k2, k3, k4, k5, k6⟩ := h c
  refine ⟨hz.trans ?_, hl.trans ?_, k0, k1, k2, k3, k4, k5, k6⟩
  · rw [h0, h1, h2, h3, h4, h5, h6]
  · rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
